-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x768 : Shape := ⟨3, ![4, 128, 768]⟩
abbrev S1024x768 : Shape := ⟨2, ![1024, 768]⟩
abbrev S1024 : Shape := ⟨1, ![1024]⟩
abbrev S2x1024 : Shape := ⟨2, ![2, 1024]⟩
abbrev S2 : Shape := ⟨1, ![2]⟩
abbrev S_ : Shape := ⟨0, ![]⟩

class Facts : Prop where
  bcast_S_S4x128x768 : S_.BroadcastsInDim S4x128x768 (![] : Fin 0 → Fin S4x128x768.rank)
  reducesTo_S4x128x768_S_d0_1_2 : S4x128x768.ReducesTo [0, 1, 2] S_
  h_S_ : 0 < S_.numel
  bcast_S_S1024x768 : S_.BroadcastsInDim S1024x768 (![] : Fin 0 → Fin S1024x768.rank)
  reducesTo_S1024x768_S_d0_1 : S1024x768.ReducesTo [0, 1] S_
  bcast_S_S1024 : S_.BroadcastsInDim S1024 (![] : Fin 0 → Fin S1024.rank)
  reducesTo_S1024_S_d0 : S1024.ReducesTo [0] S_
  bcast_S_S2x1024 : S_.BroadcastsInDim S2x1024 (![] : Fin 0 → Fin S2x1024.rank)
  reducesTo_S2x1024_S_d0_1 : S2x1024.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S1024x768 .f32) (main_arg5 : FVec F S2x1024 .f32) (main_arg6 : FVec F S2 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x768 .f32 := Host.absf main_arg4
  let main_cst_6 : FVec F S_ .f32 := constant S_ .f32 0x7F800000#32
  let main_v20 : FVec F S1024x768 .f32 := broadcastInDim S1024x768 ![] bcast_S_S1024x768 main_cst_6
  let main_v21 : IVec S1024x768 1 := cmpf .olt main_v19 main_v20
  let main_c_7 : IVec S_ 1 := constantI S_ 1 1#1
  let main_v22 : IVec S_ 1 := (fun x v => Host.reduce IntOp.andi x v reducesTo_S1024x768_S_d0_1 h_S_) main_v21 main_c_7
  let main_v23 : IVec S_ 1 := andi main_v18 main_v22
  let main_v24 : FVec F S2x1024 .f32 := Host.absf main_arg5
  let main_cst_8 : FVec F S_ .f32 := constant S_ .f32 0x7F800000#32
  let main_v25 : FVec F S2x1024 .f32 := broadcastInDim S2x1024 ![] bcast_S_S2x1024 main_cst_8
  let main_v26 : IVec S2x1024 1 := cmpf .olt main_v24 main_v25
  let main_c_9 : IVec S_ 1 := constantI S_ 1 1#1
  let main_v27 : IVec S_ 1 := (fun x v => Host.reduce IntOp.andi x v reducesTo_S2x1024_S_d0_1 h_S_) main_v26 main_c_9
  let main_v28 : IVec S_ 1 := andi main_v23 main_v27
  let main_v29 : FVec F S2 .f32 := Host.absf main_arg6
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S4x128x768 .f32) (main_arg1 : FVec F S4x128x768 .f32) (main_arg2 : FVec F S1024x768 .f32) (main_arg3 : FVec F S1024 .f32) (main_arg4 : FVec F S1024x768 .f32) (main_arg5 : FVec F S2x1024 .f32) (main_arg6 : FVec F S2 .f32) : IVec S_ 1 :=
  let main_v0 : FVec F S4x128x768 .f32 := Host.absf main_arg0
  let main_cst : FVec F S_ .f32 := constant S_ .f32 0x7F800000#32
  let main_v1 : FVec F S4x128x768 .f32 := broadcastInDim S4x128x768 ![] bcast_S_S4x128x768 main_cst
  let main_v2 : IVec S4x128x768 1 := cmpf .olt main_v0 main_v1
  let main_c : IVec S_ 1 := constantI S_ 1 1#1
  let main_v3 : IVec S_ 1 := (fun x v => Host.reduce IntOp.andi x v reducesTo_S4x128x768_S_d0_1_2 h_S_) main_v2 main_c
  let main_v4 : FVec F S4x128x768 .f32 := Host.absf main_arg1
  let main_cst_0 : FVec F S_ .f32 := constant S_ .f32 0x7F800000#32
  let main_v5 : FVec F S4x128x768 .f32 := broadcastInDim S4x128x768 ![] bcast_S_S4x128x768 main_cst_0
  let main_v6 : IVec S4x128x768 1 := cmpf .olt main_v4 main_v5
  let main_c_1 : IVec S_ 1 := constantI S_ 1 1#1
  let main_v7 : IVec S_ 1 := (fun x v => Host.reduce IntOp.andi x v reducesTo_S4x128x768_S_d0_1_2 h_S_) main_v6 main_c_1
  let main_v8 : IVec S_ 1 := andi main_v3 main_v7
  let main_v9 : FVec F S1024x768 .f32 := Host.absf main_arg2
  let main_cst_2 : FVec F S_ .f32 := constant S_ .f32 0x7F800000#32
  let main_v10 : FVec F S1024x768 .f32 := broadcastInDim S1024x768 ![] bcast_S_S1024x768 main_cst_2
  let main_v11 : IVec S1024x768 1 := cmpf .olt main_v9 main_v10
  let main_c_3 : IVec S_ 1 := constantI S_ 1 1#1
  let main_v12 : IVec S_ 1 := (fun x v => Host.reduce IntOp.andi x v reducesTo_S1024x768_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_v13 main_v16
-- ==== Kernel.lean ====
abbrev S4x128x768 : Shape := ⟨3, ![4, 128, 768]⟩
abbrev S1024x768 : Shape := ⟨2, ![1024, 768]⟩
abbrev S1024 : Shape := ⟨1, ![1024]⟩
abbrev S2x1024 : Shape := ⟨2, ![2, 1024]⟩
abbrev S2 : Shape := ⟨1, ![2]⟩
abbrev S4x128x2x128 : Shape := ⟨4, ![4, 128, 2, 128]⟩
abbrev S1x128x768 : Shape := ⟨3, ![1, 128, 768]⟩
abbrev S1x128x2x128 : Shape := ⟨4, ![1, 128, 2, 128]⟩
abbrev S128x2x128 : Shape := ⟨3, ![128, 2, 128]⟩
abbrev S128x768 : Shape := ⟨2, ![128, 768]⟩
abbrev S128 : Shape := ⟨1, ![128]⟩
abbrev S2x128 : Shape := ⟨2, ![2, 128]⟩
abbrev S768x128 : Shape := ⟨2, ![768, 128]⟩
abbrev S128x128 : Shape := ⟨2, ![128, 128]⟩
abbrev S1x128 : Shape := ⟨2, ![1, 128]⟩
abbrev S64x128 : Shape := ⟨2, ![64, 128]⟩
abbrev S64x128x1 : Shape := ⟨3, ![64, 128, 1]⟩
abbrev S1x128x128 : Shape := ⟨3, ![1, 128, 128]⟩
abbrev S64x128x128 : Shape := ⟨3, ![64, 128, 128]⟩
abbrev S1x2x128 : Shape := ⟨3, ![1, 2, 128]⟩
abbrev S64x2x128 : Shape := ⟨3, ![64, 2, 128]⟩
abbrev S1x2x1 : Shape := ⟨3, ![1, 2, 1]⟩
abbrev S4x128x128x2 : Shape := ⟨4, ![4, 128, 128, 2]⟩

abbrev nBuf : Space → Nat
  | .hbm => 14
  | .vmem => 12
  | .smem => 0
  | _ => 0

abbrev bufTy : (tb : Table) → Fin (tcTables nBuf tb) → BufTy
  | .hbm, ⟨0, _⟩ => ⟨S4x128x768, .f32⟩
  | .hbm, ⟨1, _⟩ => ⟨S4x128x768, .f32⟩
  | .hbm, ⟨2, _⟩ => ⟨S1024x768, .f32⟩
  | .hbm, ⟨3, _⟩ => ⟨S1024, .f32⟩
  | .hbm, ⟨4, _⟩ => ⟨S1024x768, .f32⟩
  | .hbm, ⟨5, _⟩ => ⟨S2x1024, .f32⟩
  | .hbm, ⟨6, _⟩ => ⟨S2, .f32⟩
  | .hbm, ⟨7, _⟩ => ⟨S4x128x768, .bf16⟩
  | .hbm, ⟨8, _⟩ => ⟨S4x128x768, .bf16⟩
  | .hbm, ⟨9, _⟩ => ⟨S1024x768, .bf16⟩
  | .hbm, ⟨10, _⟩ => ⟨S1024x768, .bf16⟩
  | .hbm, ⟨11, _⟩ => ⟨S2x1024, .bf16⟩
  | .hbm, ⟨12, _⟩ => ⟨S4x128x2x128, .f32⟩
  | .hbm, ⟨13, _⟩ => ⟨S4x128x128x2, .f32⟩
  | .local _ .vmem, ⟨0, _⟩ => ⟨S1x128x768, .bf16⟩
  | .local _ .vmem, ⟨1, _⟩ => ⟨S1x128x768, .bf16⟩
  | .local _ .vmem, ⟨2, _⟩ => ⟨S1x128x768, .bf16⟩
  | .local _ .vmem, ⟨3, _⟩ => ⟨S1x128x768, .bf16⟩
  | .local _ .vmem, ⟨4, _⟩ => ⟨S1024x768, .bf16⟩
  | .local _ .vmem, ⟨5, _⟩ => ⟨S1024, .f32⟩
  | .local _ .vmem, ⟨6, _⟩ => ⟨S1024x768, .bf16⟩
  | .local _ .vmem, ⟨7, _⟩ => ⟨S2x1024, .bf16⟩
  | .local _ .vmem, ⟨8, _⟩ => ⟨S2, .f32⟩
  | .local _ .vmem, ⟨9, _⟩ => ⟨S1x128x2x128, .f32⟩
  | .local _ .vmem, ⟨10, _⟩ => ⟨S1x128x2x128, .f32⟩
  | .local _ .vmem, ⟨11, _⟩ => ⟨S128x2x128, .f32⟩
  | _, _ => ⟨S4x128x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c8_i32 : BitVec 32 := 8#32
  let v8 : BitVec 32 := Scalar.addi c0_i32 c8_i32
  let c1_i32 : BitVec 32 := 1#32
  ⟨c0_i32, v8, c1_i32⟩
def k0_mult1 (k0_t1 : Fin k0_t1_loop.trips) : BitVec 32 :=
  let c0_i32_18 : BitVec 32 := 0#32
  let c0_i32 : BitVec 32 := 0#32
  let c1_i32 : BitVec 32 := 1#32
  let arg10 : BitVec 32 := Scf.iv c0_i32 c1_i32 k0_t1
  let c1_i32_17 : BitVec 32 := 1#32
  let v17 : BitVec 32 := Scalar.muli arg10 c1_i32_17
  let v18 : BitVec 32 := Scalar.addi c0_i32_18 v17
  let c128_i32 : BitVec 32 := 128#32
  let v19 : BitVec 32 := Scalar.muli v18 c128_i32
  v19
def k0_off1 (k0_t1 : Fin k0_t1_loop.trips) : Fin 2 → Nat :=
  let c0_i32_18 : BitVec 32 := 0#32
  let c0_i32 : BitVec 32 := 0#32
  let c1_i32 : BitVec 32 := 1#32
  let arg10 : BitVec 32 := Scf.iv c0_i32 c1_i32 k0_t1
  let c1_i32_17 : BitVec 32 := 1#32
  let v17 : BitVec 32 := Scalar.muli arg10 c1_i32_17
  let v18 : BitVec 32 := Scalar.addi c0_i32_18 v17
  let c128_i32 : BitVec 32 := 128#32
  let v19 : BitVec 32 := Scalar.muli v18 c128_i32
  let v20 : BitVec 32 := v19
  let v21 : Index := Scalar.indexCast v20
  let c0_19 : Index := 0#32
  ![v21.toNat, 0]
def k0_off2 (k0_t1 : Fin k0_t1_loop.trips) : Fin 1 → Nat :=
  let c0_i32_18 : BitVec 32 := 0#32
  let c0_i32 : BitVec 32 := 0#32
  let c1_i32 : BitVec 32 := 1#32
  let arg10 : BitVec 32 := Scf.iv c0_i32 c1_i32 k0_t1
  let c1_i32_17 : BitVec 32 := 1#32
  let v17 : BitVec 32 := Scalar.muli arg10 c1_i32_17
  let v18 : BitVec 32 := Scalar.addi c0_i32_18 v17
  let c128_i32 : BitVec 32 := 128#32
  let v19 : BitVec 32 := Scalar.muli v18 c128_i32
  let v20 : BitVec 32 := v19
  let v27 : Index := Scalar.indexCast v20
  ![v27.toNat]
def k0_off3 (k0_t1 : Fin k0_t1_loop.trips) : Fin 2 → Nat :=
  let c0_21 : Index := 0#32
  let c0_i32_18 : BitVec 32 := 0#32
  let c0_i32 : BitVec 32 := 0#32
  let c1_i32 : BitVec 32 := 1#32
  let arg10 : BitVec 32 := Scf.iv c0_i32 c1_i32 k0_t1
  let c1_i32_17 : BitVec 32 := 1#32
  let v17 : BitVec 32 := Scalar.muli arg10 c1_i32_17
  let v18 : BitVec 32 := Scalar.addi c0_i32_18 v17
  let c128_i32 : BitVec 32 := 128#32
  let v19 : BitVec 32 := Scalar.muli v18 c128_i32
  let v20 : BitVec 32 := v19
  let v29 : Index := Scalar.indexCast v20
  ![0, v29.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x128x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x128x2x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  inb_S128x2x128_S128x2x128_0_0_0 : ∀ a, (![0, 0, 0] : Fin 3 → Nat) a + S128x2x128.size a ≤ S128x2x128.size a
  h_S128x2x128 : 0 < S128x2x128.numel
  shapeCasts_S128x2x128_S128x2x128 : S128x2x128.ShapeCasts S128x2x128
  inb_S1x128x768_S1x128x768_0_0_0 : ∀ a, (![0, 0, 0] : Fin 3 → Nat) a + S1x128x768.size a ≤ S1x128x768.size a
  h_S1x128x768 : 0 < S1x128x768.numel
  shapeCasts_S1x128x768_S128x768 : S1x128x768.ShapeCasts S128x768
  h_S128x768 : 0 < S128x768.numel
  shapeCasts_S128x768_S128x768 : S128x768.ShapeCasts S128x768
  h_S128 : 0 < S128.numel
  h_S2x128 : 0 < S2x128.numel
  shapeCasts_S2x128_S2x128 : S2x128.ShapeCasts S2x128
  transposes_S128x768_p1_0_S768x128 : S128x768.Transposes [1, 0] S768x128
  shapeCasts_S128_S1x128 : S128.ShapeCasts S1x128
  broadcasts_S1x128_S128x128 : S1x128.Broadcasts S128x128
  transposes_S128x128_p1_0_S128x128 : S128x128.Transposes [1, 0] S128x128
  slices_S128x128_o0_0_S64x128 : S128x128.Slices ![0, 0] S64x128
  shapeCasts_S64x128_S64x128x1 : S64x128.ShapeCasts S64x128x1
  shapeCasts_S128x128_S1x128x128 : S128x128.ShapeCasts S1x128x128
  broadcasts_S64x128x1_S64x128x128 : S64x128x1.Broadcasts S64x128x128
  broadcasts_S1x128x128_S64x128x128 : S1x128x128.Broadcasts S64x128x128
  shapeCasts_S2x128_S1x2x128 : S2x128.ShapeCasts S1x2x128
  shapeCasts_S1x2x128_S1x2x128 : S1x2x128.ShapeCasts S1x2x128
  broadcasts_S1x2x128_S64x2x128 : S1x2x128.Broadcasts S64x2x128
  inb_S128x2x128_S64x2x128_0_0_0 : ∀ a, (![0, 0, 0] : Fin 3 → Nat) a + S64x2x128.size a ≤ S128x2x128.size a
  h_S64x2x128 : 0 < S64x2x128.numel
  shapeCasts_S64x2x128_S64x2x128 : S64x2x128.ShapeCasts S64x2x128
  slices_S128x128_o64_0_S64x128 : S128x128.Slices ![64, 0] S64x128
  inb_S128x2x128_S64x2x128_64_0_0 : ∀ a, (![64, 0, 0] : Fin 3 → Nat) a + S64x2x128.size a ≤ S128x2x128.size a
  inb_S2_S2_0 : ∀ a, (![0] : Fin 1 → Nat) a + S2.size a ≤ S2.size a
  h_S2 : 0 < S2.numel
  shapeCasts_S2_S1x2x1 : S2.ShapeCasts S1x2x1
  broadcasts_S1x2x1_S128x2x128 : S1x2x1.Broadcasts S128x2x128
  inb_S1x128x2x128_S1x128x2x128_0_0_0_0 : ∀ a, (![0, 0, 0, 0] : Fin 4 → Nat) a + S1x128x2x128.size a ≤ S1x128x2x128.size a
  h_S1x128x2x128 : 0 < S1x128x2x128.numel
  shapeCasts_S1x128x2x128_S128x2x128 : S1x128x2x128.ShapeCasts S128x2x128
  shapeCasts_S128x2x128_S1x128x2x128 : S128x2x128.ShapeCasts S1x128x2x128
  transposes_S4x128x2x128_S4x128x128x2_0_1_3_2 : S4x128x2x128.Transposes [0, 1, 3, 2] S4x128x128x2
  dot_S128x768_S768x128_S128x128_1_0_0_1_n_n_wf : DotDims.WF S128x768 S768x128 S128x128 [1] [0] [0] [1] [] []
  dot_S64x2x128_S64x128x128_S64x2x128_2_1_1_2_0_0_wf : DotDims.WF S64x2x128 S64x128x128 S64x2x128 [2] [1] [1] [2] [0] [0]
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S128x768.size a ≤ S1024x768.size a
  k0_off2_inb : ∀ k0_t1 : Fin k0_t1_loop.trips, ∀ a, (k0_off2 k0_t1) a + S128.size a ≤ S1024.size a
  k0_off3_inb : ∀ k0_t1 : Fin k0_t1_loop.trips, ∀ a, (k0_off3 k0_t1) a + S2x128.size a ≤ S2x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x768.size a ≤ S4x128x768.size a
  hwx0_0 : ∀ i : grid0.Coords, EltTy.bits .bf16 = 32 ∨ (Rect.block (s := S4x128x768) S1x128x768.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x768.size a ≤ S4x128x768.size a
  hwx0_1 : ∀ i : grid0.Coords, EltTy.bits .bf16 = 32 ∨ (Rect.block (s := S4x128x768) S1x128x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x768.size a ≤ S1024x768.size a
  hwx0_2 : ∀ i : grid0.Coords, EltTy.bits .bf16 = 32 ∨ (Rect.block (s := S1024x768) S1024x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x768.size a ≤ S1024x768.size a
  hwx0_4 : ∀ i : grid0.Coords, EltTy.bits .bf16 = 32 ∨ (Rect.block (s := S1024x768) S1024x768.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x1024.size a ≤ S2x1024.size a
  hwx0_5 : ∀ i : grid0.Coords, EltTy.bits .bf16 = 32 ∨ (Rect.block (s := S2x1024) S2x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2.size a ≤ S2.size a
  hwx0_6 : ∀ i : grid0.Coords, EltTy.bits .f32 = 32 ∨ (Rect.block (s := S2) S2.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x128x2x128.size a ≤ S4x128x2x128.size a
  hwx0_7 : ∀ i : grid0.Coords, EltTy.bits .f32 = 32 ∨ (Rect.block (s := S4x128x2x128) S1x128x2x128.size (cc0_transform_7 i) (hinb0_7 i)).WholeWords (EltTy.packing .f32)

variable [Facts₀]

def dot_S128x768_S768x128_S128x128_1_0_0_1_n_n : DotDims S128x768 S768x128 S128x128 where
  lhsContracting := [1]
  rhsContracting := [0]
  lhsNonContracting := [0]
  rhsNonContracting := [1]
  lhsBatch := []
  rhsBatch := []
  wf := dot_S128x768_S768x128_S128x128_1_0_0_1_n_n_wf
def dot_S64x2x128_S64x128x128_S64x2x128_2_1_1_2_0_0 : DotDims S64x2x128 S64x128x128 S64x2x128 where
  lhsContracting := [2]
  rhsContracting := [1]
  lhsNonContracting := [1]
  rhsNonContracting := [2]
  lhsBatch := [0]
  rhsBatch := [0]
  wf := dot_S64x2x128_S64x128x128_S64x2x128_2_1_1_2_0_0_wf

abbrev win0_0 : Pipeline.Window sig grid0 :=
  Pipeline.Window.ofSpec (Memref.whole main_v0) S1x128x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x128x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S2x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x128x2x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x128x768 : Shape := ⟨3, ![4, 128, 768]⟩
abbrev S1024x768 : Shape := ⟨2, ![1024, 768]⟩
abbrev S1024 : Shape := ⟨1, ![1024]⟩
abbrev S2x1024 : Shape := ⟨2, ![2, 1024]⟩
abbrev S2 : Shape := ⟨1, ![2]⟩
abbrev S4x128x1024 : Shape := ⟨3, ![4, 128, 1024]⟩
abbrev S1x1x1024 : Shape := ⟨3, ![1, 1, 1024]⟩
abbrev S4x128x1x1024 : Shape := ⟨4, ![4, 128, 1, 1024]⟩
abbrev S4x1x128x1024 : Shape := ⟨4, ![4, 1, 128, 1024]⟩
abbrev S4x128x128x1024 : Shape := ⟨4, ![4, 128, 128, 1024]⟩
abbrev S_ : Shape := ⟨0, ![]⟩
abbrev S4x128x128x2 : Shape := ⟨4, ![4, 128, 128, 2]⟩
abbrev S1x1x1x2 : Shape := ⟨4, ![1, 1, 1, 2]⟩

abbrev nBuf : Space → Nat
  | .hbm => 24
  | .vmem => 0
  | .smem => 0
  | _ => 0

abbrev bufTy : (tb : Table) → Fin (tcTables nBuf tb) → BufTy
  | .hbm, ⟨0, _⟩ => ⟨S4x128x768, .f32⟩
  | .hbm, ⟨1, _⟩ => ⟨S4x128x768, .f32⟩
  | .hbm, ⟨2, _⟩ => ⟨S1024x768, .f32⟩
  | .hbm, ⟨3, _⟩ => ⟨S1024, .f32⟩
  | .hbm, ⟨4, _⟩ => ⟨S1024x768, .f32⟩
  | .hbm, ⟨5, _⟩ => ⟨S2x1024, .f32⟩
  | .hbm, ⟨6, _⟩ => ⟨S2, .f32⟩
  | .hbm, ⟨7, _⟩ => ⟨S4x128x1024, .f32⟩
  | .hbm, ⟨8, _⟩ => ⟨S1x1x1024, .f32⟩
  | .hbm, ⟨9, _⟩ => ⟨S4x128x1024, .f32⟩
  | .hbm, ⟨10, _⟩ => ⟨S4x128x1024, .f32⟩
  | .hbm, ⟨11, _⟩ => ⟨S4x128x1024, .f32⟩
  | .hbm, ⟨12, _⟩ => ⟨S4x128x1x1024, .f32⟩
  | .hbm, ⟨13, _⟩ => ⟨S4x1x128x1024, .f32⟩
  | .hbm, ⟨14, _⟩ => ⟨S4x128x128x1024, .f32⟩
  | .hbm, ⟨15, _⟩ => ⟨S4x128x128x1024, .f32⟩
  | .hbm, ⟨16, _⟩ => ⟨S4x128x128x1024, .f32⟩
  | .hbm, ⟨17, _⟩ => ⟨S_, .f32⟩
  | .hbm, ⟨18, _⟩ => ⟨S4x128x128x1024, .f32⟩
  | .hbm, ⟨19, _⟩ => ⟨S4x128x128x1024, .f32⟩
  | .hbm, ⟨20, _⟩ => ⟨S4x128x128x2, .f32⟩
  | .hbm, ⟨21, _⟩ => ⟨S1x1x1x2, .f32⟩
  | .hbm, ⟨22, _⟩ => ⟨S4x128x128x2, .f32⟩
  | .hbm, ⟨23, _⟩ => ⟨S4x128x128x2, .f32⟩
  | _, _ => ⟨S4x128x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_cst : Ref sig .tc := ⟨.hbm, 17, rfl⟩
abbrev main_call0_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x128x1024_0_1_2 : S1x1x1024.BroadcastsInDim S4x128x1024 (![0, 1, 2] : Fin 3 → Fin S4x128x1024.rank)
  bcast_S4x128x1024_S4x128x1x1024_0_1_3 : S4x128x1024.BroadcastsInDim S4x128x1x1024 (![0, 1, 3] : Fin 3 → Fin S4x128x1x1024.rank)
  bcast_S4x128x1024_S4x1x128x1024_0_2_3 : S4x128x1024.BroadcastsInDim S4x1x128x1024 (![0, 2, 3] : Fin 3 → Fin S4x1x128x1024.rank)
  bcast_S4x128x1x1024_S4x128x128x1024_0_1_2_3 : S4x128x1x1024.BroadcastsInDim S4x128x128x1024 (![0, 1, 2, 3] : Fin 4 → Fin S4x128x128x1024.rank)
  bcast_S4x1x128x1024_S4x128x128x1024_0_1_2_3 : S4x1x128x1024.BroadcastsInDim S4x128x128x1024 (![0, 1, 2, 3] : Fin 4 → Fin S4x128x128x1024.rank)
  bcast_S_S4x128x128x1024 : S_.BroadcastsInDim S4x128x128x1024 (![] : Fin 0 → Fin S4x128x128x1024.rank)
  bcast_S2_S1x1x1x2_3 : S2.BroadcastsInDim S1x1x1x2 (![3] : Fin 1 → Fin S1x1x1x2.rank)
  bcast_S1x1x1x2_S4x128x128x2_0_1_2_3 : S1x1x1x2.BroadcastsInDim S4x128x128x2 (![0, 1, 2, 3] : Fin 4 → Fin S4x128x128x2.rank)
  dot_S4x128x768_S1024x768_S4x128x1024_2_1_01_0_n_n_wf : DotDims.WF S4x128x768 S1024x768 S4x128x1024 [2] [1] [0, 1] [0] [] []
  dot_S4x128x128x1024_S2x1024_S4x128x128x2_3_1_012_0_n_n_wf : DotDims.WF S4x128x128x1024 S2x1024 S4x128x128x2 [3] [1] [0, 1, 2] [0] [] []

variable [Facts₀]

def dot_S4x128x768_S1024x768_S4x128x1024_2_1_01_0_n_n : DotDims S4x128x768 S1024x768 S4x128x1024 where
  lhsContracting := [2]
  rhsContracting := [1]
  lhsNonContracting := [0, 1]
  rhsNonContracting := [0]
  lhsBatch := []
  rhsBatch := []
  wf := dot_S4x128x768_S1024x768_S4x128x1024_2_1_01_0_n_n_wf
def dot_S4x128x128x1024_S2x1024_S4x128x128x2_3_1_012_0_n_n : DotDims S4x128x128x1024 S2x1024 S4x128x128x2 where
  lhsContracting := [3]
  rhsContracting := [1]
  lhsNonContracting := [0, 1, 2]
  rhsNonContracting := [0]
  lhsBatch := []
  rhsBatch := []
  wf := dot_S4x128x128x1024_S2x1024_S4x128x128x2_3_1_012_0_n_n_wf

class Facts : Prop extends Facts₀ where

variable [Facts]
-- ==== Proof.Pieces.lean ====
/-
  What the body stores, piece by piece.

  One pass over a chunk of 128 hidden units stores twice into the accumulator: rows 0–63 get the old rows
  0–63 plus that chunk's contribution, then rows 64–127 likewise (the second store reads rows the first did
  not touch). After the last chunk the whole accumulator plus the output bias is stored into the output
  block. Here the stored values are written out as terms of the chunk's loads and of what the accumulator
  held; what those terms are as numbers is a separate matter.
-/
import proofs.«173709_j27625229648164_2_alg».proof.Proof.Gen.KernelIdeal.Frame

set_option maxRecDepth 16384

noncomputable section

namespace Cert.KernelIdeal.Gen.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The two stores of one pass over chunk `k`, the later one first, as functions of the accumulator's contents `f`
    before the pass. -/
theorem trip_pieces (𝒱 : Variants) (c : Dev nD) (bd : Option 𝒱.V) (i : grid0.Coords) (arg1 : Memref sig .tc .vmem S1x128x768 .bf16) (harg1 : arg1.IsWhole) (arg2 : Memref sig .tc .vmem S1x128x768 .bf16) (harg2 : arg2.IsWhole) (arg3 : Memref sig .tc .vmem S1024x768 .bf16) (harg3 : arg3.IsWhole) (arg4 : Memref sig .tc .vmem S1024 .f32) (harg4 : arg4.IsWhole) (arg5 : Memref sig .tc .vmem S1024x768 .bf16) (harg5 : arg5.IsWhole) (arg6 : Memref sig .tc .vmem S2x1024 .bf16) (harg6 : arg6.IsWhole) (arg7 : Memref sig .tc .vmem S2 .f32) (harg7 : arg7.IsWhole) (arg8 : Memref sig .tc .vmem S1x128x2x128 .f32) (harg8 : arg8.IsWhole) (arg9 : Memref sig .tc .vmem S128x2x128 .f32) (harg9 : arg9.IsWhole)
    (v4 : Vec F S1x128x768 .bf16) (v6 : Vec F S1x128x768 .bf16) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin k0_t1_loop.trips) (f : BufTy.Contents (Elt F) arg9.view.ty) :
    tripL_k0_t1 (F := F) 𝒱 c bd i arg1 harg1 arg2 harg2 arg3 harg3 arg4 harg4 arg5 harg5 arg6 harg6 arg7 harg7 arg8 harg8 arg9 harg9 v4 v6 X_arg3 X_arg4 X_arg5 X_arg6 k f
      = [⟨Rect.unit (s := S128x2x128) ![64, 0, 0] S64x2x128.size inb_S128x2x128_S64x2x128_64_0_0,
            k0_pay4 (k0_pay6 (View.readAt (Elt F) arg6.view (Rect.unit (s := S2x1024) (k0_off3 k) S2x128.size (k0_off3_inb k)).toLoadRect X_arg6)) (k0_pay8 (k0_pay3 v6) (View.readAt (Elt F) arg5.view (Rect.unit (s := S1024x768) (k0_off1 k) S128x768.size (k0_off1_inb k)).toLoadRect X_arg5)) (k0_pay10 (k0_pay2 v4) (View.readAt (Elt F) arg3.view (Rect.unit (s := S1024x768) (k0_off1 k) S128x768.size (k0_off1_inb k)).toLoadRect X_arg3) (View.readAt (Elt F) arg4.view (Rect.unit (s := S1024) (k0_off2 k) S128.size (k0_off2_inb k)).toLoadRect X_arg4)) (View.readAt (Elt F) arg9.view (Rect.unit (s := S128x2x128) ![64, 0, 0] S64x2x128.size inb_S128x2x128_S64x2x128_64_0_0).toLoadRect f)⟩,
         ⟨Rect.unit (s := S128x2x128) ![0, 0, 0] S64x2x128.size inb_S128x2x128_S64x2x128_0_0_0,
            k0_pay9 (k0_pay2 v4) (k0_pay3 v6) (View.readAt (Elt F) arg3.view (Rect.unit (s := S1024x768) (k0_off1 k) S128x768.size (k0_off1_inb k)).toLoadRect X_arg3) (View.readAt (Elt F) arg5.view (Rect.unit (s := S1024x768) (k0_off1 k) S128x768.size (k0_off1_inb k)).toLoadRect X_arg5) (View.readAt (Elt F) arg4.view (Rect.unit (s := S1024) (k0_off2 k) S128.size (k0_off2_inb k)).toLoadRect X_arg4) (View.readAt (Elt F) arg6.view (Rect.unit (s := S2x1024) (k0_off3 k) S2x128.size (k0_off3_inb k)).toLoadRect X_arg6) (View.readAt (Elt F) arg9.view (Rect.unit (s := S128x2x128) ![0, 0, 0] S64x2x128.size inb_S128x2x128_S64x2x128_0_0_0).toLoadRect f)⟩] := by
  unfold tripL_k0_t1 trip_k0_t1
  dsimp only
  sl_unfold_words
  rfl

/-- The one store into the output block: the bias added to the accumulator as the passes over all chunks left it,
    starting from the zero fill. -/
theorem run_pieces (c : Dev nD) (i : grid0.Coords) (arg1 : Memref sig .tc .vmem S1x128x768 .bf16) (harg1 : arg1.IsWhole) (arg2 : Memref sig .tc .vmem S1x128x768 .bf16) (harg2 : arg2.IsWhole) (arg3 : Memref sig .tc .vmem S1024x768 .bf16) (harg3 : arg3.IsWhole) (arg4 : Memref sig .tc .vmem S1024 .f32) (harg4 : arg4.IsWhole) (arg5 : Memref sig .tc .vmem S1024x768 .bf16) (harg5 : arg5.IsWhole) (arg6 : Memref sig .tc .vmem S2x1024 .bf16) (harg6 : arg6.IsWhole) (arg7 : Memref sig .tc .vmem S2 .f32) (harg7 : arg7.IsWhole) (arg8 : Memref sig .tc .vmem S1x128x2x128 .f32) (harg8 : arg8.IsWhole) (arg9 : Memref sig .tc .vmem S128x2x128 .f32) (harg9 : arg9.IsWhole)
    (x0 : Vec F S1x128x768 .bf16) (x1 : Vec F S1x128x768 .bf16) (x2 : Vec F S1024x768 .bf16) (x3 : Vec F S1024 .f32) (x4 : Vec F S1024x768 .bf16) (x5 : Vec F S2x1024 .bf16) (x6 : Vec F S2 .f32) :
    (kernelRun0_A c i arg1 harg1 arg2 harg2 arg3 harg3 arg4 harg4 arg5 harg5 arg6 harg6 arg7 harg7 arg8 harg8 arg9 harg9 x0 x1 x2 x3 x4 x5 x6).1
      = [⟨Rect.unit (s := S1x128x2x128) ![0, 0, 0, 0] S1x128x2x128.size inb_S1x128x2x128_S1x128x2x128_0_0_0_0,
            k0_pay5 (View.readAt (Elt F) arg7.view (Rect.unit (s := S2) ![0] S2.size inb_S2_S2_0).toLoadRect (harg7.unread x6))
              (View.readAt (Elt F) arg9.view (Rect.unit (s := S128x2x128) ![0, 0, 0] S128x2x128.size inb_S128x2x128_S128x2x128_0_0_0).toLoadRect (arg9.view.writes (Elt F) arg9.view.junk
                  (pb_k0_t1 Variants.none c none i arg1 harg1 arg2 harg2 arg3 harg3 arg4 harg4 arg5 harg5 arg6 harg6 arg7 harg7 arg8 harg8 arg9 harg9 (View.readAt (Elt F) arg1.view (Rect.unit (s := S1x128x768) ![0, 0, 0] S1x128x768.size inb_S1x128x768_S1x128x768_0_0_0).toLoadRect (harg1.unread x0)) (View.readAt (Elt F) arg2.view (Rect.unit (s := S1x128x768) ![0, 0, 0] S1x128x768.size inb_S1x128x768_S1x128x768_0_0_0).toLoadRect (harg2.unread x1))
                      (harg3.unread x2) (harg4.unread x3) (harg5.unread x4) (harg6.unread x5)
                      (arg9.view.writes (Elt F) arg9.view.junk [(⟨Rect.unit (s := S128x2x128) ![0, 0, 0] S128x2x128.size inb_S128x2x128_S128x2x128_0_0_0, k0_pay1⟩ : View.Piece (Elt F) S128x2x128 .f32)])
                      (Scf.trips k0_t1_loop.lb k0_t1_loop.ub k0_t1_loop.st)
                    ++ [(⟨Rect.unit (s := S128x2x128) ![0, 0, 0] S128x2x128.size inb_S128x2x128_S128x2x128_0_0_0, k0_pay1⟩ : View.Piece (Elt F) S128x2x128 .f32)])))⟩] := by
  unfold kernelRun0_A
  dsimp only
  sl_unfold_words
  rfl

end Cert.KernelIdeal.Gen.Body

end
-- ==== Proof.TripRead.lean ====
/-
  The accumulator after one pass over a chunk, element by element.

  A pass stores rows 0–63 and then rows 64–127. So after it, an element of a row below 64 holds the first store's
  value at that position, and an element of a row from 64 on holds the second store's value at the position 64 rows
  up. The contents after `k + 1` passes are one pass applied to the contents after `k`.
-/
import proofs.«173709_j27625229648164_2_alg».proof.Proof.Pieces
import Idealize.ShloMosaic.Lib.WritesUnit
import Idealize.ShloMosaic.Lib.ValueIdx

set_option maxRecDepth 16384

noncomputable section

namespace Cert.KernelIdeal.Gen.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]

/-- After a pass, a row `n` below 64 holds the first store's value at row `n' = n`. -/
theorem read_trip_lo (𝒱 : Variants) (c : Dev nD) (bd : Option 𝒱.V) (i : grid0.Coords) (arg1 : Memref sig .tc .vmem S1x128x768 .bf16) (harg1 : arg1.IsWhole) (arg2 : Memref sig .tc .vmem S1x128x768 .bf16) (harg2 : arg2.IsWhole) (arg3 : Memref sig .tc .vmem S1024x768 .bf16) (harg3 : arg3.IsWhole) (arg4 : Memref sig .tc .vmem S1024 .f32) (harg4 : arg4.IsWhole) (arg5 : Memref sig .tc .vmem S1024x768 .bf16) (harg5 : arg5.IsWhole) (arg6 : Memref sig .tc .vmem S2x1024 .bf16) (harg6 : arg6.IsWhole) (arg7 : Memref sig .tc .vmem S2 .f32) (harg7 : arg7.IsWhole) (arg8 : Memref sig .tc .vmem S1x128x2x128 .f32) (harg8 : arg8.IsWhole) (arg9 : Memref sig .tc .vmem S128x2x128 .f32) (harg9 : arg9.IsWhole)
    (v4 : Vec F S1x128x768 .bf16) (v6 : Vec F S1x128x768 .bf16) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin k0_t1_loop.trips) (f : BufTy.Contents (Elt F) arg9.view.ty)
    (n : Fin 128) (n' : Fin 64) (hn : n.val = n'.val) (o : Fin 2) (m : Fin 128) :
    arg9.view.read (Elt F) (arg9.view.writes (Elt F) f (tripL_k0_t1 (F := F) 𝒱 c bd i arg1 harg1 arg2 harg2 arg3 harg3 arg4 harg4 arg5 harg5 arg6 harg6 arg7 harg7 arg8 harg8 arg9 harg9 v4 v6 X_arg3 X_arg4 X_arg5 X_arg6 k f))
        (ix3 n o m)
      = k0_pay9 (k0_pay2 v4) (k0_pay3 v6) (View.readAt (Elt F) arg3.view (Rect.unit (s := S1024x768) (k0_off1 k) S128x768.size (k0_off1_inb k)).toLoadRect X_arg3) (View.readAt (Elt F) arg5.view (Rect.unit (s := S1024x768) (k0_off1 k) S128x768.size (k0_off1_inb k)).toLoadRect X_arg5) (View.readAt (Elt F) arg4.view (Rect.unit (s := S1024) (k0_off2 k) S128.size (k0_off2_inb k)).toLoadRect X_arg4) (View.readAt (Elt F) arg6.view (Rect.unit (s := S2x1024) (k0_off3 k) S2x128.size (k0_off3_inb k)).toLoadRect X_arg6) (View.readAt (Elt F) arg9.view (Rect.unit (s := S128x2x128) ![0, 0, 0] S64x2x128.size inb_S128x2x128_S64x2x128_0_0_0).toLoadRect f) (ix3 n' o m) := by
  rw [trip_pieces]
  refine (View.read_writes_cons_unit_of_not_mem arg9.view f inb_S128x2x128_S64x2x128_64_0_0 _ _ _ rfl (0 : Fin 3)
    (Or.inl ?_)).trans ?_
  · show n.val < 64
    have := n'.isLt
    omega
  · refine View.read_writes_cons_unit_of_mem arg9.view f inb_S128x2x128_S64x2x128_0_0_0 _ [] _ (ix3 n' o m) rfl
      (fun a => ?_)
    match a with
    | ⟨0, _⟩ => show n.val = 0 + n'.val; omega
    | ⟨1, _⟩ => exact (Nat.zero_add _).symm
    | ⟨2, _⟩ => exact (Nat.zero_add _).symm

/-- After a pass, a row `n = 64 + n'` holds the second store's value at row `n'`. -/
theorem read_trip_hi (𝒱 : Variants) (c : Dev nD) (bd : Option 𝒱.V) (i : grid0.Coords) (arg1 : Memref sig .tc .vmem S1x128x768 .bf16) (harg1 : arg1.IsWhole) (arg2 : Memref sig .tc .vmem S1x128x768 .bf16) (harg2 : arg2.IsWhole) (arg3 : Memref sig .tc .vmem S1024x768 .bf16) (harg3 : arg3.IsWhole) (arg4 : Memref sig .tc .vmem S1024 .f32) (harg4 : arg4.IsWhole) (arg5 : Memref sig .tc .vmem S1024x768 .bf16) (harg5 : arg5.IsWhole) (arg6 : Memref sig .tc .vmem S2x1024 .bf16) (harg6 : arg6.IsWhole) (arg7 : Memref sig .tc .vmem S2 .f32) (harg7 : arg7.IsWhole) (arg8 : Memref sig .tc .vmem S1x128x2x128 .f32) (harg8 : arg8.IsWhole) (arg9 : Memref sig .tc .vmem S128x2x128 .f32) (harg9 : arg9.IsWhole)
    (v4 : Vec F S1x128x768 .bf16) (v6 : Vec F S1x128x768 .bf16) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin k0_t1_loop.trips) (f : BufTy.Contents (Elt F) arg9.view.ty)
    (n : Fin 128) (n' : Fin 64) (hn : n.val = 64 + n'.val) (o : Fin 2) (m : Fin 128) :
    arg9.view.read (Elt F) (arg9.view.writes (Elt F) f (tripL_k0_t1 (F := F) 𝒱 c bd i arg1 harg1 arg2 harg2 arg3 harg3 arg4 harg4 arg5 harg5 arg6 harg6 arg7 harg7 arg8 harg8 arg9 harg9 v4 v6 X_arg3 X_arg4 X_arg5 X_arg6 k f))
        (ix3 n o m)
      = k0_pay4 (k0_pay6 (View.readAt (Elt F) arg6.view (Rect.unit (s := S2x1024) (k0_off3 k) S2x128.size (k0_off3_inb k)).toLoadRect X_arg6)) (k0_pay8 (k0_pay3 v6) (View.readAt (Elt F) arg5.view (Rect.unit (s := S1024x768) (k0_off1 k) S128x768.size (k0_off1_inb k)).toLoadRect X_arg5)) (k0_pay10 (k0_pay2 v4) (View.readAt (Elt F) arg3.view (Rect.unit (s := S1024x768) (k0_off1 k) S128x768.size (k0_off1_inb k)).toLoadRect X_arg3) (View.readAt (Elt F) arg4.view (Rect.unit (s := S1024) (k0_off2 k) S128.size (k0_off2_inb k)).toLoadRect X_arg4)) (View.readAt (Elt F) arg9.view (Rect.unit (s := S128x2x128) ![64, 0, 0] S64x2x128.size inb_S128x2x128_S64x2x128_64_0_0).toLoadRect f) (ix3 n' o m) := by
  rw [trip_pieces]
  refine View.read_writes_cons_unit_of_mem arg9.view f inb_S128x2x128_S64x2x128_64_0_0 _ _ _ (ix3 n' o m) rfl
    (fun a => ?_)
  match a with
  | ⟨0, _⟩ => exact hn
  | ⟨1, _⟩ => exact (Nat.zero_add _).symm
  | ⟨2, _⟩ => exact (Nat.zero_add _).symm

/-- The accumulator's contents after the first `k` passes, from the contents `G` it had before the first. -/
def accAfter (𝒱 : Variants) (c : Dev nD) (bd : Option 𝒱.V) (i : grid0.Coords) (arg1 : Memref sig .tc .vmem S1x128x768 .bf16) (harg1 : arg1.IsWhole) (arg2 : Memref sig .tc .vmem S1x128x768 .bf16) (harg2 : arg2.IsWhole) (arg3 : Memref sig .tc .vmem S1024x768 .bf16) (harg3 : arg3.IsWhole) (arg4 : Memref sig .tc .vmem S1024 .f32) (harg4 : arg4.IsWhole) (arg5 : Memref sig .tc .vmem S1024x768 .bf16) (harg5 : arg5.IsWhole) (arg6 : Memref sig .tc .vmem S2x1024 .bf16) (harg6 : arg6.IsWhole) (arg7 : Memref sig .tc .vmem S2 .f32) (harg7 : arg7.IsWhole) (arg8 : Memref sig .tc .vmem S1x128x2x128 .f32) (harg8 : arg8.IsWhole) (arg9 : Memref sig .tc .vmem S128x2x128 .f32) (harg9 : arg9.IsWhole)
    (v4 : Vec F S1x128x768 .bf16) (v6 : Vec F S1x128x768 .bf16) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (G : BufTy.Contents (Elt F) arg9.view.ty) (k : ℕ) : BufTy.Contents (Elt F) arg9.view.ty :=
  arg9.view.writes (Elt F) G (pb_k0_t1 (F := F) 𝒱 c bd i arg1 harg1 arg2 harg2 arg3 harg3 arg4 harg4 arg5 harg5 arg6 harg6 arg7 harg7 arg8 harg8 arg9 harg9 v4 v6 X_arg3 X_arg4 X_arg5 X_arg6 G k)

/-- Before any pass the contents are the initial ones. -/
theorem accAfter_zero (𝒱 : Variants) (c : Dev nD) (bd : Option 𝒱.V) (i : grid0.Coords) (arg1 : Memref sig .tc .vmem S1x128x768 .bf16) (harg1 : arg1.IsWhole) (arg2 : Memref sig .tc .vmem S1x128x768 .bf16) (harg2 : arg2.IsWhole) (arg3 : Memref sig .tc .vmem S1024x768 .bf16) (harg3 : arg3.IsWhole) (arg4 : Memref sig .tc .vmem S1024 .f32) (harg4 : arg4.IsWhole) (arg5 : Memref sig .tc .vmem S1024x768 .bf16) (harg5 : arg5.IsWhole) (arg6 : Memref sig .tc .vmem S2x1024 .bf16) (harg6 : arg6.IsWhole) (arg7 : Memref sig .tc .vmem S2 .f32) (harg7 : arg7.IsWhole) (arg8 : Memref sig .tc .vmem S1x128x2x128 .f32) (harg8 : arg8.IsWhole) (arg9 : Memref sig .tc .vmem S128x2x128 .f32) (harg9 : arg9.IsWhole)
    (v4 : Vec F S1x128x768 .bf16) (v6 : Vec F S1x128x768 .bf16) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (G : BufTy.Contents (Elt F) arg9.view.ty) :
    accAfter (F := F) 𝒱 c bd i arg1 harg1 arg2 harg2 arg3 harg3 arg4 harg4 arg5 harg5 arg6 harg6 arg7 harg7 arg8 harg8 arg9 harg9 v4 v6 X_arg3 X_arg4 X_arg5 X_arg6 G 0 = G := rfl

/-- One more pass: the pass over chunk `k` applied to the contents after `k` passes. -/
theorem accAfter_succ (𝒱 : Variants) (c : Dev nD) (bd : Option 𝒱.V) (i : grid0.Coords) (arg1 : Memref sig .tc .vmem S1x128x768 .bf16) (harg1 : arg1.IsWhole) (arg2 : Memref sig .tc .vmem S1x128x768 .bf16) (harg2 : arg2.IsWhole) (arg3 : Memref sig .tc .vmem S1024x768 .bf16) (harg3 : arg3.IsWhole) (arg4 : Memref sig .tc .vmem S1024 .f32) (harg4 : arg4.IsWhole) (arg5 : Memref sig .tc .vmem S1024x768 .bf16) (harg5 : arg5.IsWhole) (arg6 : Memref sig .tc .vmem S2x1024 .bf16) (harg6 : arg6.IsWhole) (arg7 : Memref sig .tc .vmem S2 .f32) (harg7 : arg7.IsWhole) (arg8 : Memref sig .tc .vmem S1x128x2x128 .f32) (harg8 : arg8.IsWhole) (arg9 : Memref sig .tc .vmem S128x2x128 .f32) (harg9 : arg9.IsWhole)
    (v4 : Vec F S1x128x768 .bf16) (v6 : Vec F S1x128x768 .bf16) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (G : BufTy.Contents (Elt F) arg9.view.ty) (k : Fin k0_t1_loop.trips) :
    accAfter (F := F) 𝒱 c bd i arg1 harg1 arg2 harg2 arg3 harg3 arg4 harg4 arg5 harg5 arg6 harg6 arg7 harg7 arg8 harg8 arg9 harg9 v4 v6 X_arg3 X_arg4 X_arg5 X_arg6 G (k.val + 1)
      = arg9.view.writes (Elt F) (accAfter (F := F) 𝒱 c bd i arg1 harg1 arg2 harg2 arg3 harg3 arg4 harg4 arg5 harg5 arg6 harg6 arg7 harg7 arg8 harg8 arg9 harg9 v4 v6 X_arg3 X_arg4 X_arg5 X_arg6 G k.val)
          (tripL_k0_t1 (F := F) 𝒱 c bd i arg1 harg1 arg2 harg2 arg3 harg3 arg4 harg4 arg5 harg5 arg6 harg6 arg7 harg7 arg8 harg8 arg9 harg9 v4 v6 X_arg3 X_arg4 X_arg5 X_arg6 k (accAfter (F := F) 𝒱 c bd i arg1 harg1 arg2 harg2 arg3 harg3 arg4 harg4 arg5 harg5 arg6 harg6 arg7 harg7 arg8 harg8 arg9 harg9 v4 v6 X_arg3 X_arg4 X_arg5 X_arg6 G k.val)) := by
  unfold accAfter
  rw [pb_k0_t1_succ, View.writes_append]

end Cert.KernelIdeal.Gen.Body

end
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.LibRowBias.lean ====
/-
  A bias row read at an index: a vector of length `C`, viewed as a `1×C` matrix and repeated down `R`
  rows, holds the vector's entry `c` at every position `(p, c)`.
-/
import Idealize.ShloMosaic.Lib.Pipeline.Value
import Idealize.ShloMosaic.Lib.ValueLayout
import Idealize.ShloMosaic.Lib.ValueIdx

noncomputable section

namespace Cert.RowBias

open Idealize.ShloMosaic Idealize.ShloMosaic.ValueIdx

/-- Entry `(p, c)` of a length-`C` vector reshaped to `1×C` and broadcast to `R×C` is the vector's entry `c`
    (for `C ≠ 1`: an axis of extent one would be read at coordinate zero, which is the same entry, but the
    broadcast rule branches on it). -/
theorem bias_rows {α : Type} {R C : Nat} (hC : C ≠ 1) (v : (⟨1, ![C]⟩ : Shape).Idx → α)
    (hs : (⟨1, ![C]⟩ : Shape).ShapeCasts ⟨2, ![1, C]⟩) (hb : (⟨2, ![1, C]⟩ : Shape).Broadcasts ⟨2, ![R, C]⟩)
    (p : Fin R) (c : Fin C) :
    broadcastTo ⟨2, ![R, C]⟩ (shapeCast ⟨2, ![1, C]⟩ v hs) hb (ix2 p c) = v (ix1 c) := by
  rw [broadcastTo_apply _ hb (ix2 p c) (ix2 (0 : Fin 1) c) (fun a => by
    match a with
    | ⟨0, _⟩ => show (0 : ℕ) = if (1 : ℕ) = 1 then 0 else _; rw [if_pos rfl]
    | ⟨1, _⟩ => show c.val = if C = 1 then 0 else c.val; rw [if_neg hC])]
  exact shapeCast_a_1a_apply v hs 0 c

end Cert.RowBias

end
-- ==== Proof.LibDropUnit.lean ====
/-
  A leading axis of extent one cast away, read at an index.

  A block of shape [1, A, B] reshaped to [A, B] keeps its elements in row-major order, so entry `(p, q)` of
  the reshaped block is entry `(0, p, q)` of the block. Any extents, any element type, no program needed.
-/
import Idealize.ShloMosaic.Lib.Pipeline.Value
import Idealize.ShloMosaic.Lib.ValueIdx

namespace Cert.DropUnit

open Idealize.ShloMosaic Idealize.ShloMosaic.ValueIdx

/-- An array of shape [1, A, B] with the unit axis cast away reads, at `(p, q)`, the array at `(0, p, q)`. -/
theorem dropUnit_apply {α : Type} {A B : Nat} (x : (⟨3, ![1, A, B]⟩ : Shape).Idx → α)
    (h : (⟨3, ![1, A, B]⟩ : Shape).ShapeCasts ⟨2, ![A, B]⟩) (p : Fin A) (q : Fin B) :
    shapeCast ⟨2, ![A, B]⟩ x h (ix2 p q) = x (ix3 0 p q) := by
  refine shapeCast_apply x h (ix2 p q) (ix3 0 p q) ?_
  rw [Shape.rowMajor_val_three, Shape.rowMajor_val_two]
  show ((0 : Fin 1).val * A + p.val) * B + q.val = p.val * B + q.val
  simp

end Cert.DropUnit
-- ==== Proof.LibBatchedDot.lean ====
/-
  A batched matrix product read at an index, on the extended reals.

  For dimension numbers with one batch axis leading both operands and the result, contracting the left
  operand's last axis against the right operand's middle axis (a stack of `B` products of an `M×K`
  matrix by a `K×N` matrix), entry `(b, p, c)` of the product is `Σ_{q < K} l[b, p, q] · r[b, q, c]`.
  The library states a product as a sum over the contraction shape's multi-indices; here that sum is
  re-indexed by the one contracted coordinate, once, for every record of this form and every extent.
-/
import Idealize.ShloMosaic.PureOps.Ideal.Laws
import Idealize.ShloMosaic.Lib.ValueIdx

noncomputable section

open scoped BigOperators

namespace Cert.BatchedDot

open Idealize.ShloMosaic Idealize.ShloMosaic.ValueIdx

variable {B M K N : Nat} (d : DotDims ⟨3, ![B, M, K]⟩ ⟨3, ![B, K, N]⟩ ⟨3, ![B, M, N]⟩)

/-- The dimension numbers of a batched product: axis 0 of both operands is the batch axis, left axis 2 is
    contracted with right axis 1, left axis 1 and right axis 2 are kept, in that order after the batch axis. -/
structure IsBatched : Prop where
  lc : d.lhsContracting = [2]
  rc : d.rhsContracting = [1]
  ln : d.lhsNonContracting = [1]
  rn : d.rhsNonContracting = [2]
  lb : d.lhsBatch = [0]
  rb : d.rhsBatch = [0]

variable {d}

/-- The contraction shape has one axis. -/
theorem contr_rank (h : IsBatched d) : d.contr.rank = 1 := by rw [d.rank_contr, h.lc]; rfl

/-- That axis has the shared extent `K`. -/
theorem contr_size (h : IsBatched d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read in the result's batch. -/
theorem lhs_batch (h : IsBatched d) (j : (⟨3, ![B, M, N]⟩ : Shape).Idx) (k : d.contr.Idx) : (d.lhsIdx j k 0).val = (j 0).val := by
  unfold DotDims.lhsIdx
  rw [dif_pos (by rw [h.lb]; exact List.mem_singleton.mpr rfl)]
  simp only [Fin.val_cast]
  exact coord_congr j _ _ _ _ (by rw [h.lb]; rfl)

/-- The left operand is read at the result's row. -/
theorem lhs_row (h : IsBatched d) (j : (⟨3, ![B, M, N]⟩ : Shape).Idx) (k : d.contr.Idx) : (d.lhsIdx j k 1).val = (j 1).val := by
  unfold DotDims.lhsIdx
  rw [dif_neg (by rw [h.lb]; exact fun hm => absurd (congrArg Fin.val (List.mem_singleton.mp hm)) (by show ¬((1 : ℕ) = 0); omega)),
    dif_pos (by rw [h.ln]; exact List.mem_singleton.mpr rfl)]
  simp only [Fin.val_cast]
  exact coord_congr j _ _ _ _ (by rw [h.lb, h.ln]; rfl)

/-- The right operand is read in the result's batch. -/
theorem rhs_batch (h : IsBatched d) (j : (⟨3, ![B, M, N]⟩ : Shape).Idx) (k : d.contr.Idx) : (d.rhsIdx j k 0).val = (j 0).val := by
  unfold DotDims.rhsIdx
  rw [dif_pos (by rw [h.rb]; exact List.mem_singleton.mpr rfl)]
  simp only [Fin.val_cast]
  exact coord_congr j _ _ _ _ (by rw [h.rb]; rfl)

/-- The right operand is read at the result's column. -/
theorem rhs_col (h : IsBatched d) (j : (⟨3, ![B, M, N]⟩ : Shape).Idx) (k : d.contr.Idx) : (d.rhsIdx j k 2).val = (j 2).val := by
  unfold DotDims.rhsIdx
  rw [dif_neg (by rw [h.rb]; exact fun hm => absurd (congrArg Fin.val (List.mem_singleton.mp hm)) (by show ¬((2 : ℕ) = 0); omega)),
    dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsBatched d) (l : (⟨3, ![B, M, K]⟩ : Shape).Idx → EReal) (r : (⟨3, ![B, K, N]⟩ : Shape).Idx → EReal)
    (j : (⟨3, ![B, M, N]⟩ : Shape).Idx) :
    ∑ k : d.contr.Idx, l (d.lhsIdx j k) * r (d.rhsIdx j k) = ∑ q : Fin K, l (ix3 (j 0) (j 1) q) * r (ix3 (j 0) q (j 2)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix3 (j 0) (j 1) q := funext fun a => Fin.ext (by
    match a with
    | ⟨0, _⟩ => exact lhs_batch h j _
    | ⟨1, _⟩ => exact lhs_row h j _
    | ⟨2, _⟩ => exact (d.lhsIdx_val_of_single h.lc j _).trans hq)
  have er : d.rhsIdx j ((contrEquiv1 d K hr hs).symm q) = ix3 (j 0) q (j 2) := funext fun a => Fin.ext (by
    match a with
    | ⟨0, _⟩ => exact rhs_batch h j _
    | ⟨1, _⟩ => exact (d.rhsIdx_val_of_single h.rc j _).trans hq
    | ⟨2, _⟩ => exact rhs_col h j _)
  rw [el, er]
  rfl

/-- A `tpu.matmul` into a zero accumulator, at entry `(b, p, c)`. -/
theorem matmul_zero_apply (h : IsBatched d) (prec : Option ContractPrecision) {φ₁ φ₂ : FTy}
    (l : FVec Ideal ⟨3, ![B, M, K]⟩ φ₁) (r : FVec Ideal ⟨3, ![B, K, N]⟩ φ₂) (b : Fin B) (p : Fin M) (c : Fin N) :
    matmul d prec l r (constant ⟨3, ![B, M, N]⟩ .f32 0x00000000#32) (ix3 b p c) = ∑ q : Fin K, l (ix3 b p q) * r (ix3 b q c) :=
  (Ideal.matmul_constant_zero_apply d prec l r (ix3 b p c)).trans (sum_contr h l r (ix3 b p c))

/-- The host's `dot_general`, at entry `(b, p, c)`. -/
theorem dotGeneral_apply (h : IsBatched d) (prec : Option ContractPrecision) {φ₁ φ₂ : FTy}
    (l : FVec Ideal ⟨3, ![B, M, K]⟩ φ₁) (r : FVec Ideal ⟨3, ![B, K, N]⟩ φ₂) (b : Fin B) (p : Fin M) (c : Fin N) :
    Host.dotGeneral d prec l r (ix3 b p c) = ∑ q : Fin K, l (ix3 b p q) * r (ix3 b q c) :=
  (Ideal.dotGeneral_apply d prec .single l r (ix3 b p c)).trans (sum_contr h l r (ix3 b p c))

end Cert.BatchedDot

end
-- ==== Proof.PayAt.lean ====
/-
  The kernel body's values read at an index, on the extended reals.

  Per hidden chunk of 128 units the body forms, for the batch at hand,
    in1[n, j] = (Σ_d x1[n, d] · w1c[j, d]) + b1c[j]        (rows n of the first input, 128 × 128)
    in2ᵀ[j, m] = Σ_d x2[m, d] · w2c[j, d]                  (rows m of the second input, transposed)
  and adds, to what the accumulator holds at (n, o, m),
    Σ_j woc[o, j] · max(in1[n, j] + in2ᵀ[j, m], 0),
  rows 0–63 and rows 64–127 of n by two separate stores. After the last chunk the output bias bo[o] is
  added. Each statement below reads one of these values at one index; a change of float format is the
  identity on the extended reals, a product into a zero accumulator is the plain sum.
-/
import proofs.«173709_j27625229648164_2_alg».proof.Proof.Gen.KernelIdeal.Skeleton
import proofs.«173709_j27625229648164_2_alg».proof.Proof.LibPlainDot
import proofs.«173709_j27625229648164_2_alg».proof.Proof.LibRowBias
import proofs.«173709_j27625229648164_2_alg».proof.Proof.LibDropUnit
import proofs.«173709_j27625229648164_2_alg».proof.Proof.LibBatchedDot
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.PayAt

open Idealize.ShloMosaic Idealize.ShloMosaic.ValueIdx Cert.KernelIdeal Cert.KernelIdeal.Gen

/-! ## The operands of the batched product, read at an index -/

/-- A row vector of the weights, viewed [1, O, K] and repeated over the batch, read at (n, o, j). -/
theorem lhs_operand {α : Type} (v : S2x128.Idx → α) (h1 : S2x128.ShapeCasts S1x2x128) (h2 : S1x2x128.ShapeCasts S1x2x128)
    (h3 : S1x2x128.Broadcasts S64x2x128) (n : Fin 64) (o : Fin 2) (j : Fin 128) :
    broadcastTo S64x2x128 (shapeCast S1x2x128 (shapeCast S1x2x128 v h1) h2) h3 (ix3 n o j) = v (ix2 o j) := by
  rw [shapeCast_self]
  rw [broadcastTo_apply _ h3 (ix3 n o j) (ix3 (0 : Fin 1) o j) (fun a => by
    match a with
    | ⟨0, _⟩ => show (0 : ℕ) = if (1 : ℕ) = 1 then 0 else _; rw [if_pos rfl]
    | ⟨1, _⟩ => show o.val = if (2 : ℕ) = 1 then 0 else o.val; rw [if_neg (by decide)]
    | ⟨2, _⟩ => show j.val = if (128 : ℕ) = 1 then 0 else j.val; rw [if_neg (by decide)])]
  exact shapeCast_ab_1ab_apply v h1 0 o j

/-- A matrix [N, K] viewed [N, K, 1] and repeated along a new last axis, read at (n, j, m). -/
theorem col_operand {α : Type} (v : S64x128.Idx → α) (h1 : S64x128.ShapeCasts S64x128x1)
    (h2 : S64x128x1.Broadcasts S64x128x128) (n : Fin 64) (j m : Fin 128) :
    broadcastTo S64x128x128 (shapeCast S64x128x1 v h1) h2 (ix3 n j m) = v (ix2 n j) := by
  rw [broadcastTo_apply _ h2 (ix3 n j m) (ix3 n j (0 : Fin 1)) (fun a => by
    match a with
    | ⟨0, _⟩ => show n.val = if (64 : ℕ) = 1 then 0 else n.val; rw [if_neg (by decide)]
    | ⟨1, _⟩ => show j.val = if (128 : ℕ) = 1 then 0 else j.val; rw [if_neg (by decide)]
    | ⟨2, _⟩ => show (0 : ℕ) = if (1 : ℕ) = 1 then 0 else _; rw [if_pos rfl])]
  refine shapeCast_apply v h1 (ix3 n j (0 : Fin 1)) (ix2 n j) ?_
  rw [Shape.rowMajor_val_three, Shape.rowMajor_val_two]
  show n.val * 128 + j.val = (n.val * 128 + j.val) * 1 + (0 : Fin 1).val
  simp

/-- A matrix [K, M] viewed [1, K, M] and repeated over the batch, read at (n, j, m). -/
theorem mat_operand {α : Type} (v : S128x128.Idx → α) (h1 : S128x128.ShapeCasts S1x128x128)
    (h2 : S1x128x128.Broadcasts S64x128x128) (n : Fin 64) (j m : Fin 128) :
    broadcastTo S64x128x128 (shapeCast S1x128x128 v h1) h2 (ix3 n j m) = v (ix2 j m) := by
  rw [broadcastTo_apply _ h2 (ix3 n j m) (ix3 (0 : Fin 1) j m) (fun a => by
    match a with
    | ⟨0, _⟩ => show (0 : ℕ) = if (1 : ℕ) = 1 then 0 else _; rw [if_pos rfl]
    | ⟨1, _⟩ => show j.val = if (128 : ℕ) = 1 then 0 else j.val; rw [if_neg (by decide)]
    | ⟨2, _⟩ => show m.val = if (128 : ℕ) = 1 then 0 else m.val; rw [if_neg (by decide)])]
  exact shapeCast_ab_1ab_apply v h1 0 j m

/-! ## The payloads -/

/-- The batched product's dimension numbers are those of a stack of matrix products. -/
theorem batched : Cert.BatchedDot.IsBatched dot_S64x2x128_S64x128x128_S64x2x128_2_1_1_2_0_0 := ⟨rfl, rfl, rfl, rfl, rfl, rfl⟩

/-- The plain products' dimension numbers are those of a matrix product. -/
theorem plain : Cert.PlainDot.IsPlain dot_S128x768_S768x128_S128x128_1_0_0_1_n_n := ⟨rfl, rfl, rfl, rfl, rfl, rfl⟩

/-- The accumulator starts at zero everywhere. -/
theorem pay1_apply (y : S128x2x128.Idx) : k0_pay1 (F := Ideal) y = 0 := by
  unfold k0_pay1
  exact (congrFun (shapeCast_self _ _) y).trans Ideal.ofBits_zero_f32

/-- The first input's block with its unit batch axis dropped. -/
theorem pay2_apply (v4 : Vec Ideal S1x128x768 .bf16) (n : Fin 128) (d : Fin 768) :
    k0_pay2 (F := Ideal) v4 (ix2 n d) = v4 (ix3 0 n d) := by
  unfold k0_pay2
  exact Cert.DropUnit.dropUnit_apply v4 _ n d

/-- The second input's block with its unit batch axis dropped. -/
theorem pay3_apply (v6 : Vec Ideal S1x128x768 .bf16) (n : Fin 128) (d : Fin 768) :
    k0_pay3 (F := Ideal) v6 (ix2 n d) = v6 (ix3 0 n d) := by
  unfold k0_pay3
  exact Cert.DropUnit.dropUnit_apply v6 _ n d

/-- The output weights' chunk is passed on unchanged. -/
theorem pay6_apply (v30 : Vec Ideal S2x128 .bf16) (y : S2x128.Idx) : k0_pay6 (F := Ideal) v30 y = v30 y := by
  unfold k0_pay6
  exact congrFun (shapeCast_self _ _) y

/-- A weight chunk [J, D], passed through an identity cast and transposed, read at (d, j). -/
theorem weightT {α : Type} (v : S128x768.Idx → α) (h1 : S128x768.ShapeCasts S128x768) (h2 : S128x768.Transposes [1, 0] S768x128)
    (d : Fin 768) (j : Fin 128) : transpose S768x128 [1, 0] (shapeCast S128x768 v h1) h2 (ix2 d j) = v (ix2 j d) := by
  rw [shapeCast_self]
  exact transpose_ix2_apply v h2 d j

/-- in1[n, j] = (Σ_d x1[n, d] · w1c[j, d]) + b1c[j]. -/
theorem pay7_apply (v5 : FVec Ideal S128x768 .bf16) (v22 : Vec Ideal S128x768 .bf16) (v28 : Vec Ideal S128 .f32)
    (n j : Fin 128) :
    k0_pay7 (F := Ideal) v5 v22 v28 (ix2 n j) = (∑ d : Fin 768, v5 (ix2 n d) * v22 (ix2 j d)) + v28 (ix1 j) := by
  unfold k0_pay7
  show _ + _ = _
  refine congrArg₂ (· + ·) ((Cert.PlainDot.matmul_zero_apply plain none _ _ n j).trans ?_) (Cert.RowBias.bias_rows (by decide) v28 _ _ n j)
  exact Finset.sum_congr rfl fun d _ => congrArg (v5 (ix2 n d) * ·) (weightT v22 _ _ d j)

/-- in2ᵀ[j, m] = Σ_d x2[m, d] · w2c[j, d]. -/
theorem pay8_apply (v7 : FVec Ideal S128x768 .bf16) (v25 : Vec Ideal S128x768 .bf16) (j m : Fin 128) :
    k0_pay8 (F := Ideal) v7 v25 (ix2 j m) = ∑ d : Fin 768, v7 (ix2 m d) * v25 (ix2 j d) := by
  unfold k0_pay8
  refine (transpose_ix2_apply _ _ j m).trans ?_
  refine (Cert.PlainDot.matmul_zero_apply plain none _ _ m j).trans ?_
  exact Finset.sum_congr rfl fun d _ => congrArg (v7 (ix2 m d) * ·) (weightT v25 _ _ d j)

/-- Rows 64–127 of in1. -/
theorem pay10_apply (v5 : FVec Ideal S128x768 .bf16) (v22 : Vec Ideal S128x768 .bf16) (v28 : Vec Ideal S128 .f32)
    (n : Fin 64) (j : Fin 128) :
    k0_pay10 (F := Ideal) v5 v22 v28 (ix2 n j)
      = k0_pay7 (F := Ideal) v5 v22 v28 (ix2 (⟨64 + n.val, by omega⟩ : Fin 128) j) := by
  unfold k0_pay10
  exact slice2_axis0_apply 64 _ _ n j _ rfl

/-- One chunk's contribution added to rows 64–127 of the accumulator (`v58` the rows of in1, `v39` in2ᵀ). -/
theorem pay4_apply (v31 : FVec Ideal S2x128 .bf16) (v39 : FVec Ideal S128x128 .f32) (v58 : FVec Ideal S64x128 .f32)
    (v71 : Vec Ideal S64x2x128 .f32) (n : Fin 64) (o : Fin 2) (m : Fin 128) :
    k0_pay4 (F := Ideal) v31 v39 v58 v71 (ix3 n o m)
      = v71 (ix3 n o m) + ∑ j : Fin 128, v31 (ix2 o j) * max (v58 (ix2 n j) + v39 (ix2 j m)) 0 := by
  unfold k0_pay4
  refine (congrFun (shapeCast_self _ _) (ix3 n o m)).trans ?_
  show v71 (ix3 n o m) + _ = _
  refine congrArg (v71 (ix3 n o m) + ·) ?_
  refine (Cert.BatchedDot.matmul_zero_apply batched none _ _ n o m).trans ?_
  refine Finset.sum_congr rfl fun j _ => ?_
  refine congrArg₂ (· * ·) (lhs_operand v31 _ _ _ n o j) ?_
  show max (_ + _) (Ideal.ofBits .f32 0x00000000#32) = _
  rw [col_operand, mat_operand, Ideal.ofBits_zero_f32]

/-- One chunk's contribution added to rows 0–63 of the accumulator. -/
theorem pay9_apply (v5 v7 : FVec Ideal S128x768 .bf16) (v22 v25 : Vec Ideal S128x768 .bf16) (v28 : Vec Ideal S128 .f32)
    (v30 : Vec Ideal S2x128 .bf16) (v53 : Vec Ideal S64x2x128 .f32) (n : Fin 64) (o : Fin 2) (m : Fin 128) :
    k0_pay9 (F := Ideal) v5 v7 v22 v25 v28 v30 v53 (ix3 n o m)
      = v53 (ix3 n o m) + ∑ j : Fin 128, v30 (ix2 o j)
          * max (k0_pay7 (F := Ideal) v5 v22 v28 (ix2 (⟨n.val, by omega⟩ : Fin 128) j) + k0_pay8 (F := Ideal) v7 v25 (ix2 j m)) 0 := by
  have e : k0_pay9 (F := Ideal) v5 v7 v22 v25 v28 v30 v53
      = k0_pay4 (F := Ideal) (k0_pay6 v30) (k0_pay8 v7 v25)
          (extractStridedSlice S64x128 ![0, 0] (k0_pay7 v5 v22 v28) slices_S128x128_o0_0_S64x128) v53 := rfl
  refine (congrFun e (ix3 n o m)).trans ((pay4_apply _ _ _ v53 n o m).trans ?_)
  refine congrArg (v53 (ix3 n o m) + ·) (Finset.sum_congr rfl fun j _ => ?_)
  refine congrArg₂ (· * ·) (pay6_apply v30 (ix2 o j)) ?_
  exact congrArg (fun t => max (t + k0_pay8 (F := Ideal) v7 v25 (ix2 j m)) 0)
    (slice2_axis0_apply 0 _ _ n j _ (Nat.zero_add _).symm)

/-- A bias vector [O] viewed [1, O, 1] and repeated over rows and lanes, read at (n, o, m). -/
theorem bias_operand {α : Type} (v : S2.Idx → α) (h1 : S2.ShapeCasts S1x2x1) (h2 : S1x2x1.Broadcasts S128x2x128)
    (n : Fin 128) (o : Fin 2) (m : Fin 128) :
    broadcastTo S128x2x128 (shapeCast S1x2x1 v h1) h2 (ix3 n o m) = v (ix1 o) := by
  rw [broadcastTo_apply _ h2 (ix3 n o m) (ix3 (0 : Fin 1) o (0 : Fin 1)) (fun a => by
    match a with
    | ⟨0, _⟩ => show (0 : ℕ) = if (1 : ℕ) = 1 then 0 else _; rw [if_pos rfl]
    | ⟨1, _⟩ => show o.val = if (2 : ℕ) = 1 then 0 else o.val; rw [if_neg (by decide)]
    | ⟨2, _⟩ => show (0 : ℕ) = if (1 : ℕ) = 1 then 0 else _; rw [if_pos rfl])]
  refine shapeCast_apply v h1 (ix3 (0 : Fin 1) o (0 : Fin 1)) (ix1 o) ?_
  rw [Shape.rowMajor_val_three, Shape.rowMajor_val_one]
  show o.val = ((0 : Fin 1).val * 2 + o.val) * 1 + (0 : Fin 1).val
  simp

/-- The output block: the accumulator plus the output bias of the class `o`. -/
theorem pay5_apply (v9 : Vec Ideal S2 .f32) (v10 : Vec Ideal S128x2x128 .f32) (n : Fin 128) (o : Fin 2) (m : Fin 128) :
    k0_pay5 (F := Ideal) v9 v10 (ix4 0 n o m) = v10 (ix3 n o m) + v9 (ix1 o) := by
  unfold k0_pay5
  refine (shapeCast_abc_1abc_apply _ _ 0 n o m).trans ?_
  show v10 (ix3 n o m) + _ = _
  exact congrArg (v10 (ix3 n o m) + ·) (bias_operand v9 _ _ n o m)

end Cert.KernelIdeal.PayAt

end
-- ==== Proof.LibLoadAt.lean ====
/-
  A load through a unit-stride rectangle, read at explicit coordinates.

  A rectangle of sizes `(a, b, …)` at offsets `off` inside an array picks, at its own position `(p, q, …)`, the
  array's element whose coordinate on each axis is the offset plus the position. The target coordinates are named by
  the caller and tied to the offsets by one equation per axis, so that offsets a program computes can be read through
  their closed form. Ranks one to three, any extents, any element type; no program needed.
-/
import Idealize.ShloMosaic.Lib.Pipeline.Value
import Idealize.ShloMosaic.Lib.ValueIdx

namespace Cert.LoadAt

open Idealize.ShloMosaic Idealize.ShloMosaic.ValueIdx

variable {Val : EltTy → Type} {e : EltTy}

/-- A window of `a` consecutive entries of a vector. -/
theorem ld_unit1 {A a : ℕ} (X : (⟨1, ![A]⟩ : Shape).Idx → Val e) {off : Fin 1 → ℕ}
    (inb : ∀ i, off i + (![a] : Fin 1 → ℕ) i ≤ (⟨1, ![A]⟩ : Shape).size i)
    (p : Fin a) (P : Fin A) (hP : P.val = off 0 + p.val) :
    View.ld X (Rect.unit (s := ⟨1, ![A]⟩) off ![a] inb) (ix1 p) = X (ix1 P) := by
  show X _ = X _
  congr 1
  funext i
  apply Fin.ext
  match i with
  | ⟨0, _⟩ => show off 0 + 1 * p.val = P.val; rw [Nat.one_mul, hP]

/-- An `a × b` box of a matrix. -/
theorem ld_unit2 {A B a b : ℕ} (X : (⟨2, ![A, B]⟩ : Shape).Idx → Val e) {off : Fin 2 → ℕ}
    (inb : ∀ i, off i + (![a, b] : Fin 2 → ℕ) i ≤ (⟨2, ![A, B]⟩ : Shape).size i)
    (p : Fin a) (q : Fin b) (P : Fin A) (Q : Fin B) (hP : P.val = off 0 + p.val) (hQ : Q.val = off 1 + q.val) :
    View.ld X (Rect.unit (s := ⟨2, ![A, B]⟩) off ![a, b] inb) (ix2 p q) = X (ix2 P Q) := by
  show X _ = X _
  congr 1
  funext i
  apply Fin.ext
  match i with
  | ⟨0, _⟩ => show off 0 + 1 * p.val = P.val; rw [Nat.one_mul, hP]
  | ⟨1, _⟩ => show off 1 + 1 * q.val = Q.val; rw [Nat.one_mul, hQ]

/-- An `a × b × c` box of a rank-3 array. -/
theorem ld_unit3 {A B C a b c : ℕ} (X : (⟨3, ![A, B, C]⟩ : Shape).Idx → Val e) {off : Fin 3 → ℕ}
    (inb : ∀ i, off i + (![a, b, c] : Fin 3 → ℕ) i ≤ (⟨3, ![A, B, C]⟩ : Shape).size i)
    (p : Fin a) (q : Fin b) (r : Fin c) (P : Fin A) (Q : Fin B) (R : Fin C)
    (hP : P.val = off 0 + p.val) (hQ : Q.val = off 1 + q.val) (hR : R.val = off 2 + r.val) :
    View.ld X (Rect.unit (s := ⟨3, ![A, B, C]⟩) off ![a, b, c] inb) (ix3 p q r) = X (ix3 P Q R) := by
  show X _ = X _
  congr 1
  funext i
  apply Fin.ext
  match i with
  | ⟨0, _⟩ => show off 0 + 1 * p.val = P.val; rw [Nat.one_mul, hP]
  | ⟨1, _⟩ => show off 1 + 1 * q.val = Q.val; rw [Nat.one_mul, hQ]
  | ⟨2, _⟩ => show off 2 + 1 * r.val = R.val; rw [Nat.one_mul, hR]

end Cert.LoadAt
-- ==== Proof.LibBlockSum.lean ====
import Mathlib.Algebra.BigOperators.Fin
import Mathlib.Algebra.BigOperators.Intervals

/-!
# Summing a long sequence block by block

A sum over `T * B` consecutive indices can be taken as `T` partial sums of `B`
consecutive terms each, added up one after the other.  In an additive commutative
monoid the result is the same as the single sum over all `T * B` indices:

* `Cert.BlockSum.sum_blocks`: the general statement, for any number `T` of blocks of any
  length `B`;
* `Cert.BlockSum.sum_20x5000`: twenty blocks of five thousand terms, started from zero,
  with the block count written `19 + 1` and the position written `5000 * s + r`, equal
  to the sum over all one hundred thousand indices.

Only commutativity and associativity of the addition are used.
-/

namespace Cert.BlockSum

/-- `T` partial sums of `B` consecutive terms add up to the sum over all `T * B` terms. -/
theorem sum_blocks {β : Type*} [AddCommMonoid β] (T B : ℕ) (f : ℕ → β) :
    ∑ s ∈ Finset.range T, ∑ r : Fin B, f (s * B + r.val) = ∑ n : Fin (T * B), f n.val := by
  rw [Fin.sum_univ_eq_sum_range (fun n => f n) (T * B)]
  induction T with
  | zero => simp
  | succ T ih =>
    -- the last block is the tail of the range of length `T * B + B`
    rw [Finset.sum_range_succ, ih, Nat.succ_mul, Finset.sum_range_add,
      Fin.sum_univ_eq_sum_range (fun r => f (T * B + r)) B]

/-- Twenty blocks of five thousand terms, accumulated from zero, give the sum of all
one hundred thousand terms. -/
theorem sum_20x5000 {β : Type*} [AddCommMonoid β] (g : Fin 100000 → β) (f : ℕ → β)
    (hf : ∀ n : Fin 100000, f n.val = g n) :
    (0 : β) + ∑ s ∈ Finset.range (19 + 1), ∑ r : Fin 5000, f (5000 * s + r.val)
      = ∑ n : Fin 100000, g n := by
  rw [zero_add]
  calc ∑ s ∈ Finset.range (19 + 1), ∑ r : Fin 5000, f (5000 * s + r.val)
      = ∑ s ∈ Finset.range 20, ∑ r : Fin 5000, f (s * 5000 + r.val) := by
        refine Finset.sum_congr rfl fun s _ => Finset.sum_congr rfl fun r _ => ?_
        rw [Nat.mul_comm]
    _ = ∑ n : Fin (20 * 5000), f n.val := sum_blocks 20 5000 f
    _ = ∑ n : Fin 100000, g n := Finset.sum_congr rfl fun n _ => hf n

end Cert.BlockSum
-- ==== Proof.Spec.lean ====
/-
  What both programs compute, as one function of the seven argument arrays, and the one law that joins them.

  With in1[b, n, h] = (Σ_d input1[b, n, d] · W1[h, d]) + b1[h] and in2[b, m, h] = Σ_d input2[b, m, d] · W2[h, d], the
  result at (b, n, m, o) is

      (Σ_{h < 1024} max(in1[b, n, h] + in2[b, m, h], 0) · Wo[o, h]) + bo[o].

  One program takes the sum over the 1024 hidden units at once. The other walks them in 8 chunks of 128, adding each
  chunk's partial sum Σ_j Wo[o, 128 s + j] · max(…, 0) to an accumulator that starts at zero. The two agree because
  addition of extended reals is commutative and associative (so a sum may be taken block by block), zero is neutral
  for it, and the product is commutative. None of this needs the terms to be finite.
-/
import Idealize.ShloMosaic.PureOps.Ideal
import Idealize.ShloMosaic.Lib.ValueIdx
import proofs.«173709_j27625229648164_2_alg».proof.Proof.LibBlockSum

noncomputable section

open scoped BigOperators

namespace Cert.Spec

open Idealize.ShloMosaic Idealize.ShloMosaic.ValueIdx

/-- max(in1 + in2, 0) at hidden unit `h`, for one row `r0` of the first input and one row `r1` of the second. -/
def hiddenRow (r0 r1 : Fin 768 → EReal) (w1 : (⟨2, ![1024, 768]⟩ : Shape).Idx → EReal)
    (b1 : (⟨1, ![1024]⟩ : Shape).Idx → EReal) (w2 : (⟨2, ![1024, 768]⟩ : Shape).Idx → EReal) (h : Fin 1024) : EReal :=
  max (((∑ d : Fin 768, r0 d * w1 (ix2 h d)) + b1 (ix1 h)) + ∑ d : Fin 768, r1 d * w2 (ix2 h d)) 0

/-- The result array: entry (b, n, m, o). -/
def G (x0 x1 : (⟨3, ![4, 128, 768]⟩ : Shape).Idx → EReal) (w1 : (⟨2, ![1024, 768]⟩ : Shape).Idx → EReal)
    (b1 : (⟨1, ![1024]⟩ : Shape).Idx → EReal) (w2 : (⟨2, ![1024, 768]⟩ : Shape).Idx → EReal)
    (wo : (⟨2, ![2, 1024]⟩ : Shape).Idx → EReal) (bo : (⟨1, ![2]⟩ : Shape).Idx → EReal) :
    (⟨4, ![4, 128, 128, 2]⟩ : Shape).Idx → EReal := fun i =>
  (∑ h : Fin 1024, hiddenRow (fun d => x0 (ix3 (i 0) (i 1) d)) (fun d => x1 (ix3 (i 0) (i 2) d)) w1 b1 w2 h * wo (ix2 (i 3) h))
    + bo (ix1 (i 3))

/-- Eight chunks of 128 hidden units, accumulated from zero with the weight written first, give the sum over all
    1024 hidden units with the weight written last. -/
theorem chunks_eq (wo : (⟨2, ![2, 1024]⟩ : Shape).Idx → EReal) (o : Fin 2) (g : Fin 1024 → EReal) :
    (0 : EReal) + ∑ s : Fin 8, ∑ j : Fin 128,
        wo (ix2 o (⟨128 * s.val + j.val, by have := s.isLt; have := j.isLt; omega⟩ : Fin 1024))
          * g (⟨128 * s.val + j.val, by have := s.isLt; have := j.isLt; omega⟩ : Fin 1024)
      = ∑ h : Fin 1024, g h * wo (ix2 o h) := by
  -- the summand as a function of a natural number, zero from 1024 on
  let f : ℕ → EReal := fun h => if hh : h < 1024 then g ⟨h, hh⟩ * wo (ix2 o ⟨h, hh⟩) else 0
  rw [zero_add]
  calc ∑ s : Fin 8, ∑ j : Fin 128,
          wo (ix2 o (⟨128 * s.val + j.val, by have := s.isLt; have := j.isLt; omega⟩ : Fin 1024))
            * g (⟨128 * s.val + j.val, by have := s.isLt; have := j.isLt; omega⟩ : Fin 1024)
      = ∑ s : Fin 8, ∑ j : Fin 128, f (s.val * 128 + j.val) := by
        refine Finset.sum_congr rfl fun s _ => Finset.sum_congr rfl fun j _ => ?_
        have hlt : s.val * 128 + j.val < 1024 := by have := s.isLt; have := j.isLt; omega
        have e : (⟨128 * s.val + j.val, by have := s.isLt; have := j.isLt; omega⟩ : Fin 1024)
            = ⟨s.val * 128 + j.val, hlt⟩ :=
          Fin.ext (by show 128 * s.val + j.val = s.val * 128 + j.val; omega)
        show _ = dite _ _ _
        rw [dif_pos hlt, e, mul_comm]
    _ = ∑ s ∈ Finset.range 8, ∑ j : Fin 128, f (s * 128 + j.val) :=
        (Finset.sum_range fun s => ∑ j : Fin 128, f (s * 128 + j.val)).symm
    _ = ∑ n : Fin (8 * 128), f n.val := Cert.BlockSum.sum_blocks 8 128 f
    _ = ∑ h : Fin 1024, g h * wo (ix2 o h) := by
        refine Finset.sum_congr rfl fun h _ => ?_
        show dite _ _ _ = _
        rw [dif_pos h.isLt]

/-- The chunked form of the result at (b, n, m, o): what a walk over the hidden units in 8 chunks of 128 computes. -/
theorem chunked_eq_G (x0 x1 : (⟨3, ![4, 128, 768]⟩ : Shape).Idx → EReal) (w1 : (⟨2, ![1024, 768]⟩ : Shape).Idx → EReal)
    (b1 : (⟨1, ![1024]⟩ : Shape).Idx → EReal) (w2 : (⟨2, ![1024, 768]⟩ : Shape).Idx → EReal)
    (wo : (⟨2, ![2, 1024]⟩ : Shape).Idx → EReal) (bo : (⟨1, ![2]⟩ : Shape).Idx → EReal)
    (b : Fin 4) (n m : Fin 128) (o : Fin 2) :
    ((0 : EReal) + ∑ s : Fin 8, ∑ j : Fin 128,
        wo (ix2 o (⟨128 * s.val + j.val, by have := s.isLt; have := j.isLt; omega⟩ : Fin 1024))
          * hiddenRow (fun d => x0 (ix3 b n d)) (fun d => x1 (ix3 b m d)) w1 b1 w2
              (⟨128 * s.val + j.val, by have := s.isLt; have := j.isLt; omega⟩ : Fin 1024))
        + bo (ix1 o)
      = G x0 x1 w1 b1 w2 wo bo (ix4 b n m o) := by
  rw [chunks_eq wo o (hiddenRow (fun d => x0 (ix3 b n d)) (fun d => x1 (ix3 b m d)) w1 b1 w2)]
  rfl

end Cert.Spec

end
-- ==== Proof.Acc.lean ====
/-
  What the accumulator holds after the passes, and what the output block holds, as numbers.

  For one batch (rows x0 of the first input, rows x1 of the second) the pass over chunk `k` adds to the accumulator at
  (n, o, m) that chunk's partial sum
      Σ_{j < 128} Wo[o, 128 k + j] · max(in1[n, 128 k + j] + in2[m, 128 k + j], 0),
  where in1 = x0 · W1ᵀ + b1 and in2 = x1 · W2ᵀ. From a zero fill, after `k` passes it holds zero plus the first `k`
  partial sums, by induction on `k`; the output block is that after the last pass, plus the output bias.
-/
import proofs.«173709_j27625229648164_2_alg».proof.Proof.TripRead
import proofs.«173709_j27625229648164_2_alg».proof.Proof.PayAt
import proofs.«173709_j27625229648164_2_alg».proof.Proof.LibLoadAt
import proofs.«173709_j27625229648164_2_alg».proof.Proof.Spec

set_option maxRecDepth 16384

noncomputable section

open scoped BigOperators

namespace Cert.KernelIdeal.Gen.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open Cert.Spec (hiddenRow)

theorem zeros1 : (![0] : Fin 1 → ℕ) = fun _ => 0 := funext fun a => by fin_cases a; rfl
theorem zeros3 : (![0, 0, 0] : Fin 3 → ℕ) = fun _ => 0 := funext fun a => by fin_cases a <;> rfl

/-- Chunk `k` holds the hidden units `128 k` to `128 k + 127`; there are at most 8 chunks. -/
theorem chunk_lt (k : Fin k0_t1_loop.trips) (j : Fin 128) : 128 * k.val + j.val < 1024 := by
  have h8 := Nat.lt_of_lt_of_le k.isLt k0_t1_abs.2.1
  have hj := j.isLt
  omega

/-- Hidden unit `j` of chunk `k`. -/
abbrev hid (k : Fin k0_t1_loop.trips) (j : Fin 128) : Fin 1024 := ⟨128 * k.val + j.val, chunk_lt k j⟩

/-! ## The chunk's loads, entry by entry -/

/-- The chunk of the first weight matrix: row `j` of the chunk is row `128 k + j` of the matrix. -/
theorem w1c_at (arg3 : Memref sig .tc .vmem S1024x768 .bf16) (x2 : Vec Ideal S1024x768 .bf16)
    (X_arg3 : BufTy.Contents (Elt Ideal) arg3.view.ty) (h3 : arg3.view.read (Elt Ideal) X_arg3 = x2)
    (k : Fin k0_t1_loop.trips) (j : Fin 128) (d : Fin 768) :
    (View.readAt (Elt Ideal) arg3.view (Rect.unit (s := S1024x768) (k0_off1 k) S128x768.size (k0_off1_inb k)).toLoadRect X_arg3) (ix2 j d) = x2 (ix2 (hid k j) d) := by
  rw [View.readAt_eq_ld, h3]
  exact Cert.LoadAt.ld_unit2 x2 (k0_off1_inb k) j d (hid k j) d (by rw [k0_off1_eq k]; rfl)
    (by rw [k0_off1_eq k]; exact (Nat.zero_add _).symm)

/-- The chunk of the second weight matrix. -/
theorem w2c_at (arg5 : Memref sig .tc .vmem S1024x768 .bf16) (x4 : Vec Ideal S1024x768 .bf16)
    (X_arg5 : BufTy.Contents (Elt Ideal) arg5.view.ty) (h5 : arg5.view.read (Elt Ideal) X_arg5 = x4)
    (k : Fin k0_t1_loop.trips) (j : Fin 128) (d : Fin 768) :
    (View.readAt (Elt Ideal) arg5.view (Rect.unit (s := S1024x768) (k0_off1 k) S128x768.size (k0_off1_inb k)).toLoadRect X_arg5) (ix2 j d) = x4 (ix2 (hid k j) d) := by
  rw [View.readAt_eq_ld, h5]
  exact Cert.LoadAt.ld_unit2 x4 (k0_off1_inb k) j d (hid k j) d (by rw [k0_off1_eq k]; rfl)
    (by rw [k0_off1_eq k]; exact (Nat.zero_add _).symm)

/-- The chunk of the hidden bias. -/
theorem b1c_at (arg4 : Memref sig .tc .vmem S1024 .f32) (x3 : Vec Ideal S1024 .f32)
    (X_arg4 : BufTy.Contents (Elt Ideal) arg4.view.ty) (h4 : arg4.view.read (Elt Ideal) X_arg4 = x3)
    (k : Fin k0_t1_loop.trips) (j : Fin 128) :
    (View.readAt (Elt Ideal) arg4.view (Rect.unit (s := S1024) (k0_off2 k) S128.size (k0_off2_inb k)).toLoadRect X_arg4) (ix1 j) = x3 (ix1 (hid k j)) := by
  rw [View.readAt_eq_ld, h4]
  exact Cert.LoadAt.ld_unit1 x3 (k0_off2_inb k) j (hid k j) (by rw [k0_off2_eq k]; rfl)

/-- The chunk of the output weights: column `j` of the chunk is column `128 k + j`. -/
theorem woc_at (arg6 : Memref sig .tc .vmem S2x1024 .bf16) (x5 : Vec Ideal S2x1024 .bf16)
    (X_arg6 : BufTy.Contents (Elt Ideal) arg6.view.ty) (h6 : arg6.view.read (Elt Ideal) X_arg6 = x5)
    (k : Fin k0_t1_loop.trips) (o : Fin 2) (j : Fin 128) :
    (View.readAt (Elt Ideal) arg6.view (Rect.unit (s := S2x1024) (k0_off3 k) S2x128.size (k0_off3_inb k)).toLoadRect X_arg6) (ix2 o j) = x5 (ix2 o (hid k j)) := by
  rw [View.readAt_eq_ld, h6]
  exact Cert.LoadAt.ld_unit2 x5 (k0_off3_inb k) o j o (hid k j) (by rw [k0_off3_eq k]; exact (Nat.zero_add _).symm)
    (by rw [k0_off3_eq k]; rfl)

/-! ## The two projections of a chunk -/

/-- in1[n, 128 k + j] = (Σ_d x0[n, d] · W1[128 k + j, d]) + b1[128 k + j]. -/
theorem in1_at (arg3 : Memref sig .tc .vmem S1024x768 .bf16) (arg4 : Memref sig .tc .vmem S1024 .f32)
    (x0 : Vec Ideal S1x128x768 .bf16) (x2 : Vec Ideal S1024x768 .bf16) (x3 : Vec Ideal S1024 .f32)
    (X_arg3 : BufTy.Contents (Elt Ideal) arg3.view.ty) (X_arg4 : BufTy.Contents (Elt Ideal) arg4.view.ty)
    (h3 : arg3.view.read (Elt Ideal) X_arg3 = x2) (h4 : arg4.view.read (Elt Ideal) X_arg4 = x3)
    (k : Fin k0_t1_loop.trips) (n j : Fin 128) :
    k0_pay7 (F := Ideal) (k0_pay2 x0) (View.readAt (Elt Ideal) arg3.view (Rect.unit (s := S1024x768) (k0_off1 k) S128x768.size (k0_off1_inb k)).toLoadRect X_arg3) (View.readAt (Elt Ideal) arg4.view (Rect.unit (s := S1024) (k0_off2 k) S128.size (k0_off2_inb k)).toLoadRect X_arg4) (ix2 n j)
      = (∑ d : Fin 768, x0 (ix3 0 n d) * x2 (ix2 (hid k j) d)) + x3 (ix1 (hid k j)) := by
  rw [Cert.KernelIdeal.PayAt.pay7_apply, b1c_at arg4 x3 X_arg4 h4 k j]
  congr 1
  refine Finset.sum_congr rfl fun d _ => ?_
  rw [Cert.KernelIdeal.PayAt.pay2_apply, w1c_at arg3 x2 X_arg3 h3 k j d]

/-- in2ᵀ[128 k + j, m] = Σ_d x1[m, d] · W2[128 k + j, d]. -/
theorem in2_at (arg5 : Memref sig .tc .vmem S1024x768 .bf16)
    (x1 : Vec Ideal S1x128x768 .bf16) (x4 : Vec Ideal S1024x768 .bf16)
    (X_arg5 : BufTy.Contents (Elt Ideal) arg5.view.ty) (h5 : arg5.view.read (Elt Ideal) X_arg5 = x4)
    (k : Fin k0_t1_loop.trips) (j m : Fin 128) :
    k0_pay8 (F := Ideal) (k0_pay3 x1) (View.readAt (Elt Ideal) arg5.view (Rect.unit (s := S1024x768) (k0_off1 k) S128x768.size (k0_off1_inb k)).toLoadRect X_arg5) (ix2 j m)
      = ∑ d : Fin 768, x1 (ix3 0 m d) * x4 (ix2 (hid k j) d) := by
  rw [Cert.KernelIdeal.PayAt.pay8_apply]
  refine Finset.sum_congr rfl fun d _ => ?_
  rw [Cert.KernelIdeal.PayAt.pay3_apply, w2c_at arg5 x4 X_arg5 h5 k j d]

/-- Row `n'` of the lower half, and row `64 + n'` of the upper half, among the 128 rows. -/
abbrev loRow (n' : Fin 64) : Fin 128 := ⟨n'.val, Nat.lt_of_lt_of_le n'.isLt (by decide)⟩
abbrev hiRow (n' : Fin 64) : Fin 128 := ⟨64 + n'.val, Nat.add_lt_add_left n'.isLt 64⟩

/-! ## One pass -/

/-- Chunk `k`'s partial sum at (n, o, m). -/
def chunkTerm (x0 x1 : Vec Ideal S1x128x768 .bf16) (x2 : Vec Ideal S1024x768 .bf16) (x3 : Vec Ideal S1024 .f32) (x4 : Vec Ideal S1024x768 .bf16) (x5 : Vec Ideal S2x1024 .bf16) (k : Fin k0_t1_loop.trips) (n : Fin 128) (o : Fin 2) (m : Fin 128) : EReal :=
  ∑ j : Fin 128, x5 (ix2 o (hid k j))
    * hiddenRow (fun d => x0 (ix3 0 n d)) (fun d => x1 (ix3 0 m d)) x2 x3 x4 (hid k j)

/-- The summand of a chunk's partial sum, from the chunk's loads. -/
theorem summand_at (arg3 : Memref sig .tc .vmem S1024x768 .bf16) (arg4 : Memref sig .tc .vmem S1024 .f32)
    (arg5 : Memref sig .tc .vmem S1024x768 .bf16) (arg6 : Memref sig .tc .vmem S2x1024 .bf16)
    (x0 x1 : Vec Ideal S1x128x768 .bf16) (x2 : Vec Ideal S1024x768 .bf16) (x3 : Vec Ideal S1024 .f32) (x4 : Vec Ideal S1024x768 .bf16) (x5 : Vec Ideal S2x1024 .bf16)
    (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty)
    (h3 : arg3.view.read (Elt Ideal) X_arg3 = x2) (h4 : arg4.view.read (Elt Ideal) X_arg4 = x3) (h5 : arg5.view.read (Elt Ideal) X_arg5 = x4) (h6 : arg6.view.read (Elt Ideal) X_arg6 = x5)
    (k : Fin k0_t1_loop.trips) (n : Fin 128) (o : Fin 2) (m j : Fin 128) :
    (View.readAt (Elt Ideal) arg6.view (Rect.unit (s := S2x1024) (k0_off3 k) S2x128.size (k0_off3_inb k)).toLoadRect X_arg6) (ix2 o j)
        * max (k0_pay7 (F := Ideal) (k0_pay2 x0) (View.readAt (Elt Ideal) arg3.view (Rect.unit (s := S1024x768) (k0_off1 k) S128x768.size (k0_off1_inb k)).toLoadRect X_arg3) (View.readAt (Elt Ideal) arg4.view (Rect.unit (s := S1024) (k0_off2 k) S128.size (k0_off2_inb k)).toLoadRect X_arg4) (ix2 n j)
            + k0_pay8 (F := Ideal) (k0_pay3 x1) (View.readAt (Elt Ideal) arg5.view (Rect.unit (s := S1024x768) (k0_off1 k) S128x768.size (k0_off1_inb k)).toLoadRect X_arg5) (ix2 j m)) 0
      = x5 (ix2 o (hid k j)) * hiddenRow (fun d => x0 (ix3 0 n d)) (fun d => x1 (ix3 0 m d)) x2 x3 x4 (hid k j) := by
  rw [woc_at arg6 x5 X_arg6 h6 k o j, in1_at arg3 arg4 x0 x2 x3 X_arg3 X_arg4 h3 h4 k n j,
    in2_at arg5 x1 x4 X_arg5 h5 k j m]
  rfl

/-- One pass adds the chunk's partial sum, at every element of the accumulator. -/
theorem acc_step (𝒱 : Variants) (c : Dev nD) (bd : Option 𝒱.V) (i : grid0.Coords) (arg1 : Memref sig .tc .vmem S1x128x768 .bf16) (harg1 : arg1.IsWhole) (arg2 : Memref sig .tc .vmem S1x128x768 .bf16) (harg2 : arg2.IsWhole) (arg3 : Memref sig .tc .vmem S1024x768 .bf16) (harg3 : arg3.IsWhole) (arg4 : Memref sig .tc .vmem S1024 .f32) (harg4 : arg4.IsWhole) (arg5 : Memref sig .tc .vmem S1024x768 .bf16) (harg5 : arg5.IsWhole) (arg6 : Memref sig .tc .vmem S2x1024 .bf16) (harg6 : arg6.IsWhole) (arg7 : Memref sig .tc .vmem S2 .f32) (harg7 : arg7.IsWhole) (arg8 : Memref sig .tc .vmem S1x128x2x128 .f32) (harg8 : arg8.IsWhole) (arg9 : Memref sig .tc .vmem S128x2x128 .f32) (harg9 : arg9.IsWhole)
    (x0 x1 : Vec Ideal S1x128x768 .bf16) (x2 : Vec Ideal S1024x768 .bf16) (x3 : Vec Ideal S1024 .f32) (x4 : Vec Ideal S1024x768 .bf16) (x5 : Vec Ideal S2x1024 .bf16)
    (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty)
    (h3 : arg3.view.read (Elt Ideal) X_arg3 = x2) (h4 : arg4.view.read (Elt Ideal) X_arg4 = x3) (h5 : arg5.view.read (Elt Ideal) X_arg5 = x4) (h6 : arg6.view.read (Elt Ideal) X_arg6 = x5)
    (G : BufTy.Contents (Elt Ideal) arg9.view.ty) (k : Fin k0_t1_loop.trips) (n : Fin 128) (o : Fin 2) (m : Fin 128) :
    arg9.view.read (Elt Ideal) (accAfter (F := Ideal) 𝒱 c bd i arg1 harg1 arg2 harg2 arg3 harg3 arg4 harg4 arg5 harg5 arg6 harg6 arg7 harg7 arg8 harg8 arg9 harg9 x0 x1 X_arg3 X_arg4 X_arg5 X_arg6 G (k.val + 1)) (ix3 n o m)
      = arg9.view.read (Elt Ideal) (accAfter (F := Ideal) 𝒱 c bd i arg1 harg1 arg2 harg2 arg3 harg3 arg4 harg4 arg5 harg5 arg6 harg6 arg7 harg7 arg8 harg8 arg9 harg9 x0 x1 X_arg3 X_arg4 X_arg5 X_arg6 G k.val) (ix3 n o m)
        + chunkTerm x0 x1 x2 x3 x4 x5 k n o m := by
  rw [accAfter_succ]
  unfold chunkTerm
  by_cases hn : n.val < 64
  · -- a row of the lower half: the first store
    obtain ⟨n', rfl⟩ : ∃ n' : Fin 64, n = loRow n' := ⟨⟨n.val, hn⟩, rfl⟩
    refine (read_trip_lo (F := Ideal) 𝒱 c bd i arg1 harg1 arg2 harg2 arg3 harg3 arg4 harg4 arg5 harg5 arg6 harg6 arg7 harg7 arg8 harg8 arg9 harg9 x0 x1 X_arg3 X_arg4 X_arg5 X_arg6 k _ _ n' rfl o m).trans ?_
    rw [Cert.KernelIdeal.PayAt.pay9_apply]
    congr 1
    · rw [View.readAt_eq_ld]
      exact Cert.LoadAt.ld_unit3 _ inb_S128x2x128_S64x2x128_0_0_0 n' o m _ o m (Nat.zero_add _).symm
        (Nat.zero_add _).symm (Nat.zero_add _).symm
    · exact Finset.sum_congr rfl fun j _ =>
        summand_at arg3 arg4 arg5 arg6 x0 x1 x2 x3 x4 x5 X_arg3 X_arg4 X_arg5 X_arg6 h3 h4 h5 h6 k _ o m j
  · -- a row of the upper half: the second store, 64 rows up
    obtain ⟨n', rfl⟩ : ∃ n' : Fin 64, n = hiRow n' :=
      ⟨⟨n.val - 64, by have := n.isLt; omega⟩, Fin.ext (by show n.val = 64 + (n.val - 64); omega)⟩
    refine (read_trip_hi (F := Ideal) 𝒱 c bd i arg1 harg1 arg2 harg2 arg3 harg3 arg4 harg4 arg5 harg5 arg6 harg6 arg7 harg7 arg8 harg8 arg9 harg9 x0 x1 X_arg3 X_arg4 X_arg5 X_arg6 k _ _ n' rfl o m).trans ?_
    rw [Cert.KernelIdeal.PayAt.pay4_apply]
    congr 1
    · rw [View.readAt_eq_ld]
      exact Cert.LoadAt.ld_unit3 _ inb_S128x2x128_S64x2x128_64_0_0 n' o m _ o m rfl
        (Nat.zero_add _).symm (Nat.zero_add _).symm
    · refine Finset.sum_congr rfl fun j _ => ?_
      rw [Cert.KernelIdeal.PayAt.pay6_apply, Cert.KernelIdeal.PayAt.pay10_apply]
      exact summand_at arg3 arg4 arg5 arg6 x0 x1 x2 x3 x4 x5 X_arg3 X_arg4 X_arg5 X_arg6 h3 h4 h5 h6 k _ o m j

/-! ## All passes -/

/-- From contents that read zero everywhere, after `k` passes the accumulator holds zero plus the partial sums of the
    first `k` chunks. -/
theorem acc_value (𝒱 : Variants) (c : Dev nD) (bd : Option 𝒱.V) (i : grid0.Coords) (arg1 : Memref sig .tc .vmem S1x128x768 .bf16) (harg1 : arg1.IsWhole) (arg2 : Memref sig .tc .vmem S1x128x768 .bf16) (harg2 : arg2.IsWhole) (arg3 : Memref sig .tc .vmem S1024x768 .bf16) (harg3 : arg3.IsWhole) (arg4 : Memref sig .tc .vmem S1024 .f32) (harg4 : arg4.IsWhole) (arg5 : Memref sig .tc .vmem S1024x768 .bf16) (harg5 : arg5.IsWhole) (arg6 : Memref sig .tc .vmem S2x1024 .bf16) (harg6 : arg6.IsWhole) (arg7 : Memref sig .tc .vmem S2 .f32) (harg7 : arg7.IsWhole) (arg8 : Memref sig .tc .vmem S1x128x2x128 .f32) (harg8 : arg8.IsWhole) (arg9 : Memref sig .tc .vmem S128x2x128 .f32) (harg9 : arg9.IsWhole)
    (x0 x1 : Vec Ideal S1x128x768 .bf16) (x2 : Vec Ideal S1024x768 .bf16) (x3 : Vec Ideal S1024 .f32) (x4 : Vec Ideal S1024x768 .bf16) (x5 : Vec Ideal S2x1024 .bf16)
    (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty)
    (h3 : arg3.view.read (Elt Ideal) X_arg3 = x2) (h4 : arg4.view.read (Elt Ideal) X_arg4 = x3) (h5 : arg5.view.read (Elt Ideal) X_arg5 = x4) (h6 : arg6.view.read (Elt Ideal) X_arg6 = x5)
    (G : BufTy.Contents (Elt Ideal) arg9.view.ty) (hG : ∀ y, arg9.view.read (Elt Ideal) G y = 0)
    (n : Fin 128) (o : Fin 2) (m : Fin 128) :
    ∀ (k : ℕ) (hk : k ≤ k0_t1_loop.trips),
      arg9.view.read (Elt Ideal) (accAfter (F := Ideal) 𝒱 c bd i arg1 harg1 arg2 harg2 arg3 harg3 arg4 harg4 arg5 harg5 arg6 harg6 arg7 harg7 arg8 harg8 arg9 harg9 x0 x1 X_arg3 X_arg4 X_arg5 X_arg6 G k) (ix3 n o m)
        = 0 + ∑ s : Fin k, chunkTerm x0 x1 x2 x3 x4 x5 ⟨s.val, Nat.lt_of_lt_of_le s.isLt hk⟩ n o m
  | 0, _ => by
      rw [accAfter_zero, hG]
      simp
  | k + 1, hk => by
      refine (acc_step 𝒱 c bd i arg1 harg1 arg2 harg2 arg3 harg3 arg4 harg4 arg5 harg5 arg6 harg6 arg7 harg7 arg8 harg8 arg9 harg9 x0 x1 x2 x3 x4 x5 X_arg3 X_arg4 X_arg5 X_arg6 h3 h4 h5 h6 G ⟨k, hk⟩ n o m).trans ?_
      rw [acc_value 𝒱 c bd i arg1 harg1 arg2 harg2 arg3 harg3 arg4 harg4 arg5 harg5 arg6 harg6 arg7 harg7 arg8 harg8 arg9 harg9 x0 x1 x2 x3 x4 x5 X_arg3 X_arg4 X_arg5 X_arg6 h3 h4 h5 h6 G hG n o m k (Nat.le_of_succ_le hk), Fin.sum_univ_castSucc, add_assoc]
      rfl

end Cert.KernelIdeal.Gen.Body

end
-- ==== Proof.OutBlock.lean ====
/-
  The output block of one batch, as numbers.

  The body's last store writes the accumulator plus the output bias into the whole output block. With the
  accumulator's value after all passes known, the block at (n, o, m) is zero plus the partial sums of all chunks,
  plus bo[o]; and when the body's seven input blocks are the batch `b` rows of the first two arguments and the
  whole of the other five, that is the specified result at (b, n, m, o).
-/
import proofs.«173709_j27625229648164_2_alg».proof.Proof.Acc

set_option maxRecDepth 16384

noncomputable section

open scoped BigOperators

namespace Cert.KernelIdeal.Gen.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open Cert.Spec (hiddenRow)

/-- The output block at (0, n, o, m): zero plus every chunk's partial sum, plus the output bias. -/
theorem out_value (c : Dev nD) (i : grid0.Coords) (arg1 : Memref sig .tc .vmem S1x128x768 .bf16) (harg1 : arg1.IsWhole) (arg2 : Memref sig .tc .vmem S1x128x768 .bf16) (harg2 : arg2.IsWhole) (arg3 : Memref sig .tc .vmem S1024x768 .bf16) (harg3 : arg3.IsWhole) (arg4 : Memref sig .tc .vmem S1024 .f32) (harg4 : arg4.IsWhole) (arg5 : Memref sig .tc .vmem S1024x768 .bf16) (harg5 : arg5.IsWhole) (arg6 : Memref sig .tc .vmem S2x1024 .bf16) (harg6 : arg6.IsWhole) (arg7 : Memref sig .tc .vmem S2 .f32) (harg7 : arg7.IsWhole) (arg8 : Memref sig .tc .vmem S1x128x2x128 .f32) (harg8 : arg8.IsWhole) (arg9 : Memref sig .tc .vmem S128x2x128 .f32) (harg9 : arg9.IsWhole)
    (x0 x1 : Vec Ideal S1x128x768 .bf16) (x2 : Vec Ideal S1024x768 .bf16) (x3 : Vec Ideal S1024 .f32) (x4 : Vec Ideal S1024x768 .bf16) (x5 : Vec Ideal S2x1024 .bf16) (x6 : Vec Ideal S2 .f32) (n : Fin 128) (o : Fin 2) (m : Fin 128) :
    out0_A_7 (F := Ideal) c i arg1 harg1 arg2 harg2 arg3 harg3 arg4 harg4 arg5 harg5 arg6 harg6 arg7 harg7 arg8 harg8 arg9 harg9 x0 x1 x2 x3 x4 x5 x6 (ix4 (0 : Fin 1) n o m)
      = (0 + ∑ s : Fin k0_t1_loop.trips, chunkTerm x0 x1 x2 x3 x4 x5 s n o m) + x6 (ix1 o) := by
  unfold out0_A_7
  rw [run_pieces]
  refine (View.read_writes_cons_unit_of_mem VO0_7 VO0_7.junk inb_S1x128x2x128_S1x128x2x128_0_0_0_0 _ [] _
    (ix4 (0 : Fin 1) n o m) rfl (fun a => ?_)).trans ?_
  · match a with
    | ⟨0, _⟩ => exact (Nat.zero_add _).symm
    | ⟨1, _⟩ => exact (Nat.zero_add _).symm
    | ⟨2, _⟩ => exact (Nat.zero_add _).symm
    | ⟨3, _⟩ => exact (Nat.zero_add _).symm
  · rw [Cert.KernelIdeal.PayAt.pay5_apply]
    congr 1
    · -- the accumulator read back whole after the last pass
      rw [View.readAt_eq_ld, View.ld_unit_zero zeros3, View.writes_append]
      have e0 : (View.readAt (Elt Ideal) arg1.view (Rect.unit (s := S1x128x768) ![0, 0, 0] S1x128x768.size inb_S1x128x768_S1x128x768_0_0_0).toLoadRect (harg1.unread x0)) = x0 := by
        rw [View.readAt_eq_ld, harg1.read_unread, View.ld_unit_zero zeros3]
      have e1 : (View.readAt (Elt Ideal) arg2.view (Rect.unit (s := S1x128x768) ![0, 0, 0] S1x128x768.size inb_S1x128x768_S1x128x768_0_0_0).toLoadRect (harg2.unread x1)) = x1 := by
        rw [View.readAt_eq_ld, harg2.read_unread, View.ld_unit_zero zeros3]
      rw [e0, e1]
      -- the zero fill reads zero everywhere
      have hG : ∀ y, arg9.view.read (Elt Ideal) (arg9.view.writes (Elt Ideal) arg9.view.junk [(⟨Rect.unit (s := S128x2x128) ![0, 0, 0] S128x2x128.size inb_S128x2x128_S128x2x128_0_0_0, k0_pay1 (F := Ideal)⟩ : View.Piece (Elt Ideal) S128x2x128 .f32)]) y = 0 := by
        intro y
        obtain ⟨p, q, r, rfl⟩ : ∃ (p : Fin 128) (q : Fin 2) (r : Fin 128), y = ix3 p q r := ⟨y 0, y 1, y 2, eq_ix3 y⟩
        refine (View.read_writes_cons_unit_of_mem arg9.view arg9.view.junk inb_S128x2x128_S128x2x128_0_0_0 _ []
          _ (ix3 p q r) rfl (fun a => ?_)).trans (Cert.KernelIdeal.PayAt.pay1_apply _)
        match a with
        | ⟨0, _⟩ => exact (Nat.zero_add _).symm
        | ⟨1, _⟩ => exact (Nat.zero_add _).symm
        | ⟨2, _⟩ => exact (Nat.zero_add _).symm
      exact acc_value Variants.none c none i arg1 harg1 arg2 harg2 arg3 harg3 arg4 harg4 arg5 harg5 arg6 harg6 arg7 harg7 arg8 harg8 arg9 harg9 x0 x1 x2 x3 x4 x5 (harg3.unread x2) (harg4.unread x3)
        (harg5.unread x4) (harg6.unread x5) (harg3.read_unread x2) (harg4.read_unread x3) (harg5.read_unread x4)
        (harg6.read_unread x5) _ hG n o m k0_t1_loop.trips (Nat.le_refl _)
    · -- the output bias, loaded whole
      rw [View.readAt_eq_ld, harg7.read_unread, View.ld_unit_zero zeros1]

/-- There are exactly eight chunks. -/
theorem trips_eq : k0_t1_loop.trips = 8 := by decide

/-- The output block of batch `b` is the specified result: when the first two input blocks are the rows of batch `b`
    of arrays `a0`, `a1` and the other five blocks are the whole arrays, the block at (0, n, o, m) is `G` at
    (b, n, m, o). -/
theorem block_value (c : Dev nD) (i : grid0.Coords) (arg1 : Memref sig .tc .vmem S1x128x768 .bf16) (harg1 : arg1.IsWhole) (arg2 : Memref sig .tc .vmem S1x128x768 .bf16) (harg2 : arg2.IsWhole) (arg3 : Memref sig .tc .vmem S1024x768 .bf16) (harg3 : arg3.IsWhole) (arg4 : Memref sig .tc .vmem S1024 .f32) (harg4 : arg4.IsWhole) (arg5 : Memref sig .tc .vmem S1024x768 .bf16) (harg5 : arg5.IsWhole) (arg6 : Memref sig .tc .vmem S2x1024 .bf16) (harg6 : arg6.IsWhole) (arg7 : Memref sig .tc .vmem S2 .f32) (harg7 : arg7.IsWhole) (arg8 : Memref sig .tc .vmem S1x128x2x128 .f32) (harg8 : arg8.IsWhole) (arg9 : Memref sig .tc .vmem S128x2x128 .f32) (harg9 : arg9.IsWhole)
    (x0 x1 : Vec Ideal S1x128x768 .bf16) (x2 : Vec Ideal S1024x768 .bf16) (x3 : Vec Ideal S1024 .f32) (x4 : Vec Ideal S1024x768 .bf16) (x5 : Vec Ideal S2x1024 .bf16) (x6 : Vec Ideal S2 .f32)
    (a0 a1 : (⟨3, ![4, 128, 768]⟩ : Shape).Idx → EReal) (b : Fin 4)
    (e0 : ∀ (n : Fin 128) (d : Fin 768), x0 (ix3 (0 : Fin 1) n d) = a0 (ix3 b n d))
    (e1 : ∀ (n : Fin 128) (d : Fin 768), x1 (ix3 (0 : Fin 1) n d) = a1 (ix3 b n d))
    (n : Fin 128) (o : Fin 2) (m : Fin 128) :
    out0_A_7 (F := Ideal) c i arg1 harg1 arg2 harg2 arg3 harg3 arg4 harg4 arg5 harg5 arg6 harg6 arg7 harg7 arg8 harg8 arg9 harg9 x0 x1 x2 x3 x4 x5 x6 (ix4 (0 : Fin 1) n o m)
      = Cert.Spec.G a0 a1 x2 x3 x4 x5 x6 (ix4 b n m o) := by
  rw [out_value, ← Cert.Spec.chunked_eq_G a0 a1 x2 x3 x4 x5 x6 b n m o,
    ← Fin.sum_congr' (fun s => chunkTerm x0 x1 x2 x3 x4 x5 s n o m) trips_eq.symm]
  congr 2
  refine Finset.sum_congr rfl fun s _ => ?_
  unfold chunkTerm
  refine Finset.sum_congr rfl fun j _ => ?_
  have r0 : (fun d => x0 (ix3 (0 : Fin 1) n d)) = fun d => a0 (ix3 b n d) := funext fun d => e0 n d
  have r1 : (fun d => x1 (ix3 (0 : Fin 1) m d)) = fun d => a1 (ix3 b m d) := funext fun d => e1 m d
  rw [r0, r1]
  rfl

/-- The same at any index `j = (0, n, o, m)` of the output block. -/
theorem block_value_idx (c : Dev nD) (i : grid0.Coords) (arg1 : Memref sig .tc .vmem S1x128x768 .bf16) (harg1 : arg1.IsWhole) (arg2 : Memref sig .tc .vmem S1x128x768 .bf16) (harg2 : arg2.IsWhole) (arg3 : Memref sig .tc .vmem S1024x768 .bf16) (harg3 : arg3.IsWhole) (arg4 : Memref sig .tc .vmem S1024 .f32) (harg4 : arg4.IsWhole) (arg5 : Memref sig .tc .vmem S1024x768 .bf16) (harg5 : arg5.IsWhole) (arg6 : Memref sig .tc .vmem S2x1024 .bf16) (harg6 : arg6.IsWhole) (arg7 : Memref sig .tc .vmem S2 .f32) (harg7 : arg7.IsWhole) (arg8 : Memref sig .tc .vmem S1x128x2x128 .f32) (harg8 : arg8.IsWhole) (arg9 : Memref sig .tc .vmem S128x2x128 .f32) (harg9 : arg9.IsWhole)
    (x0 x1 : Vec Ideal S1x128x768 .bf16) (x2 : Vec Ideal S1024x768 .bf16) (x3 : Vec Ideal S1024 .f32) (x4 : Vec Ideal S1024x768 .bf16) (x5 : Vec Ideal S2x1024 .bf16) (x6 : Vec Ideal S2 .f32)
    (a0 a1 : (⟨3, ![4, 128, 768]⟩ : Shape).Idx → EReal) (b : Fin 4)
    (e0 : ∀ (n : Fin 128) (d : Fin 768), x0 (ix3 (0 : Fin 1) n d) = a0 (ix3 b n d))
    (e1 : ∀ (n : Fin 128) (d : Fin 768), x1 (ix3 (0 : Fin 1) n d) = a1 (ix3 b n d))
    (j : S1x128x2x128.Idx) :
    out0_A_7 (F := Ideal) c i arg1 harg1 arg2 harg2 arg3 harg3 arg4 harg4 arg5 harg5 arg6 harg6 arg7 harg7 arg8 harg8 arg9 harg9 x0 x1 x2 x3 x4 x5 x6 j
      = Cert.Spec.G a0 a1 x2 x3 x4 x5 x6 (ix4 b (j 1) (j 3) (j 2)) := by
  obtain ⟨z, n, o, q, rfl⟩ : ∃ (z : Fin 1) (n : Fin 128) (o : Fin 2) (q : Fin 128), j = ix4 z n o q :=
    ⟨j 0, j 1, j 2, j 3, eq_ix4 j⟩
  obtain rfl : z = 0 := Subsingleton.elim _ _
  exact block_value c i arg1 harg1 arg2 harg2 arg3 harg3 arg4 harg4 arg5 harg5 arg6 harg6 arg7 harg7 arg8 harg8 arg9 harg9 x0 x1 x2 x3 x4 x5 x6 a0 a1 b e0 e1 n o q

end Cert.KernelIdeal.Gen.Body

end
-- ==== Proof.Block.lean ====
/-
  From the blocks to the whole result array.

  The grid has one point per batch. At point `t` the first two windows hold the rows of batch `t` of the two
  inputs, the next five hold their whole arrays (the weights and biases), and the output window's block is batch
  `t` of the result array. A change of float format before the launch is the identity on the extended reals, so
  what the region finds in a window's array is the corresponding argument. Each point writes back the specified
  result's batch `t`, the four blocks cover the array, so after the launch the array is the specified result, with
  its last two axes in the order (o, m).
-/
import proofs.«173709_j27625229648164_2_alg».proof.Proof.OutBlock
import Idealize.ShloMosaic.Lib.StableHlo.Run
import Idealize.ShloMosaic.Lib.Pipeline.Value

set_option maxRecDepth 16384

noncomputable section

open scoped BigOperators

namespace Cert.KernelIdeal.Gen.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

/-- The result array in the launch's layout (b, n, o, m): the specified result with its last two axes swapped. -/
def launchResult (c : Dev nD) : S4x128x2x128.Idx → EReal := fun i =>
  Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix4 (i 0) (i 1) (i 3) (i 2))

/-! ## What the region finds in the windows' arrays: the arguments -/

theorem V_v0 (c : Dev nD) : (V m c main_v0 : S4x128x768.Idx → EReal) = ((m ((c : Thread nD τ).loc main_arg0)) : S4x128x768.Idx → EReal) := by
  show (StableHlo.after hostOps0 (fun b => m (c, b)) (Proc.devRef .tc main_v0) : S4x128x768.Idx → EReal) = _
  after_results
  rfl
theorem V_v1 (c : Dev nD) : (V m c main_v1 : S4x128x768.Idx → EReal) = ((m ((c : Thread nD τ).loc main_arg1)) : S4x128x768.Idx → EReal) := by
  show (StableHlo.after hostOps0 (fun b => m (c, b)) (Proc.devRef .tc main_v1) : S4x128x768.Idx → EReal) = _
  after_results
  rfl
theorem V_v2 (c : Dev nD) : (V m c main_v2 : S1024x768.Idx → EReal) = ((m ((c : Thread nD τ).loc main_arg2)) : S1024x768.Idx → EReal) := by
  show (StableHlo.after hostOps0 (fun b => m (c, b)) (Proc.devRef .tc main_v2) : S1024x768.Idx → EReal) = _
  after_results
  rfl
theorem V_v3 (c : Dev nD) : (V m c main_v3 : S1024x768.Idx → EReal) = ((m ((c : Thread nD τ).loc main_arg4)) : S1024x768.Idx → EReal) := by
  show (StableHlo.after hostOps0 (fun b => m (c, b)) (Proc.devRef .tc main_v3) : S1024x768.Idx → EReal) = _
  after_results
  rfl
theorem V_v4 (c : Dev nD) : (V m c main_v4 : S2x1024.Idx → EReal) = ((m ((c : Thread nD τ).loc main_arg5)) : S2x1024.Idx → EReal) := by
  show (StableHlo.after hostOps0 (fun b => m (c, b)) (Proc.devRef .tc main_v4) : S2x1024.Idx → EReal) = _
  after_results
  rfl

/-! ## The index maps, decided over the grid -/

/-- The first two windows and the output window move with the batch; the other five stay at the origin. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 4) = t.val ∧ win0_7.index t (1 : Fin 4) = 0 ∧ win0_7.index t (2 : Fin 4) = 0
      ∧ win0_7.index t (3 : Fin 4) = 0 :=
  (by decide +kernel : ∀ t : Fin grid0.N, _)

/-- A grid point is a batch number. -/
theorem point_lt (t : Fin cfg0.N) : t.val < 4 := by
  have h : cfg0.N = 4 := N_0
  have := t.isLt
  omega

/-- The batch of a grid point. -/
abbrev batch (t : Fin cfg0.N) : Fin 4 := ⟨t.val, point_lt t⟩

/-! ## The input blocks at a point -/

/-- The first window's block: the rows of the point's batch of the first argument. -/
theorem blk0_at (c : Dev nD) (t : Fin cfg0.N) (n : Fin 128) (d : Fin 768) :
    iblk m c 0 t (ix3 (0 : Fin 1) n d) = ((m ((c : Thread nD τ).loc main_arg0)) : S4x128x768.Idx → EReal) (ix3 (batch t) n d) := by
  obtain ⟨e00, e01, e02, e10, e11, e12, e20, e21, e30, e40, e41, e50, e51, e60, e70, e71, e72, e73⟩ := idx_facts t
  show (V m c main_v0 : S4x128x768.Idx → EReal) (((cfg0.win 0).blk t).view.emb (ix3 (0 : Fin 1) n d)) = _
  rw [V_v0]
  congr 1
  funext a
  apply Fin.ext
  match a with
  | ⟨0, _⟩ => show win0_0.index t (0 : Fin 3) * 1 + 1 * 0 = t.val; omega
  | ⟨1, _⟩ => show win0_0.index t (1 : Fin 3) * 128 + 1 * n.val = n.val; omega
  | ⟨2, _⟩ => show win0_0.index t (2 : Fin 3) * 768 + 1 * d.val = d.val; omega

/-- The second window's block: the rows of the point's batch of the second argument. -/
theorem blk1_at (c : Dev nD) (t : Fin cfg0.N) (n : Fin 128) (d : Fin 768) :
    iblk m c 1 t (ix3 (0 : Fin 1) n d) = ((m ((c : Thread nD τ).loc main_arg1)) : S4x128x768.Idx → EReal) (ix3 (batch t) n d) := by
  obtain ⟨e00, e01, e02, e10, e11, e12, e20, e21, e30, e40, e41, e50, e51, e60, e70, e71, e72, e73⟩ := idx_facts t
  show (V m c main_v1 : S4x128x768.Idx → EReal) (((cfg0.win 1).blk t).view.emb (ix3 (0 : Fin 1) n d)) = _
  rw [V_v1]
  congr 1
  funext a
  apply Fin.ext
  match a with
  | ⟨0, _⟩ => show win0_1.index t (0 : Fin 3) * 1 + 1 * 0 = t.val; omega
  | ⟨1, _⟩ => show win0_1.index t (1 : Fin 3) * 128 + 1 * n.val = n.val; omega
  | ⟨2, _⟩ => show win0_1.index t (2 : Fin 3) * 768 + 1 * d.val = d.val; omega

/-- The third window's block is the whole first weight matrix. -/
theorem blk2_eq (c : Dev nD) (t : Fin cfg0.N) : (iblk m c 2 t : S1024x768.Idx → EReal) = ((m ((c : Thread nD τ).loc main_arg2)) : S1024x768.Idx → EReal) := by
  obtain ⟨e00, e01, e02, e10, e11, e12, e20, e21, e30, e40, e41, e50, e51, e60, e70, e71, e72, e73⟩ := idx_facts t
  funext y
  show (V m c main_v2 : S1024x768.Idx → EReal) (((cfg0.win 2).blk t).view.emb y) = _
  rw [V_v2]
  congr 1
  funext a
  apply Fin.ext
  match a with
  | ⟨0, _⟩ => show win0_2.index t (0 : Fin 2) * 1024 + 1 * (y 0).val = (y 0).val; omega
  | ⟨1, _⟩ => show win0_2.index t (1 : Fin 2) * 768 + 1 * (y 1).val = (y 1).val; omega

/-- The fourth window's block is the whole hidden bias. -/
theorem blk3_eq (c : Dev nD) (t : Fin cfg0.N) : (iblk m c 3 t : S1024.Idx → EReal) = ((m ((c : Thread nD τ).loc main_arg3)) : S1024.Idx → EReal) := by
  obtain ⟨e00, e01, e02, e10, e11, e12, e20, e21, e30, e40, e41, e50, e51, e60, e70, e71, e72, e73⟩ := idx_facts t
  funext y
  show (V m c main_arg3 : S1024.Idx → EReal) (((cfg0.win 3).blk t).view.emb y) = _
  rw [V_main_arg3]
  congr 1
  funext a
  apply Fin.ext
  match a with
  | ⟨0, _⟩ => show win0_3.index t (0 : Fin 1) * 1024 + 1 * (y 0).val = (y 0).val; omega

/-- The fifth window's block is the whole second weight matrix. -/
theorem blk4_eq (c : Dev nD) (t : Fin cfg0.N) : (iblk m c 4 t : S1024x768.Idx → EReal) = ((m ((c : Thread nD τ).loc main_arg4)) : S1024x768.Idx → EReal) := by
  obtain ⟨e00, e01, e02, e10, e11, e12, e20, e21, e30, e40, e41, e50, e51, e60, e70, e71, e72, e73⟩ := idx_facts t
  funext y
  show (V m c main_v3 : S1024x768.Idx → EReal) (((cfg0.win 4).blk t).view.emb y) = _
  rw [V_v3]
  congr 1
  funext a
  apply Fin.ext
  match a with
  | ⟨0, _⟩ => show win0_4.index t (0 : Fin 2) * 1024 + 1 * (y 0).val = (y 0).val; omega
  | ⟨1, _⟩ => show win0_4.index t (1 : Fin 2) * 768 + 1 * (y 1).val = (y 1).val; omega

/-- The sixth window's block is the whole output weight matrix. -/
theorem blk5_eq (c : Dev nD) (t : Fin cfg0.N) : (iblk m c 5 t : S2x1024.Idx → EReal) = ((m ((c : Thread nD τ).loc main_arg5)) : S2x1024.Idx → EReal) := by
  obtain ⟨e00, e01, e02, e10, e11, e12, e20, e21, e30, e40, e41, e50, e51, e60, e70, e71, e72, e73⟩ := idx_facts t
  funext y
  show (V m c main_v4 : S2x1024.Idx → EReal) (((cfg0.win 5).blk t).view.emb y) = _
  rw [V_v4]
  congr 1
  funext a
  apply Fin.ext
  match a with
  | ⟨0, _⟩ => show win0_5.index t (0 : Fin 2) * 2 + 1 * (y 0).val = (y 0).val; omega
  | ⟨1, _⟩ => show win0_5.index t (1 : Fin 2) * 1024 + 1 * (y 1).val = (y 1).val; omega

/-- The seventh window's block is the whole output bias. -/
theorem blk6_eq (c : Dev nD) (t : Fin cfg0.N) : (iblk m c 6 t : S2.Idx → EReal) = ((m ((c : Thread nD τ).loc main_arg6)) : S2.Idx → EReal) := by
  obtain ⟨e00, e01, e02, e10, e11, e12, e20, e21, e30, e40, e41, e50, e51, e60, e70, e71, e72, e73⟩ := idx_facts t
  funext y
  show (V m c main_arg6 : S2.Idx → EReal) (((cfg0.win 6).blk t).view.emb y) = _
  rw [V_main_arg6]
  congr 1
  funext a
  apply Fin.ext
  match a with
  | ⟨0, _⟩ => show win0_6.index t (0 : Fin 1) * 2 + 1 * (y 0).val = (y 0).val; omega

/-! ## What a point writes back, the cover, the array after the launch -/

/-- Point `t` writes back batch `t` of the result. -/
theorem flushed_eq (c : Dev nD) (t : Fin cfg0.N) :
    (dats m 0 c).flushed 7 t = ((cfg0.win 7).blk t).view.read (Elt Ideal) (launchResult m c) := by
  show (cfg0.win 7).cut (grid0.coords t) ((dats m 0 c).after 7 t) = _
  rw [after0_7]
  obtain ⟨e00, e01, e02, e10, e11, e12, e20, e21, e30, e40, e41, e50, e51, e60, e70, e71, e72, e73⟩ := idx_facts t
  funext j
  show outsAt0 m c t j = launchResult m c (((cfg0.win 7).blk t).view.emb j)
  unfold outsAt0
  refine (block_value_idx c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
    (iblk m c 0 t) (iblk m c 1 t) (iblk m c 2 t) (iblk m c 3 t) (iblk m c 4 t) (iblk m c 5 t) (iblk m c 6 t)
    ((m ((c : Thread nD τ).loc main_arg0)) : S4x128x768.Idx → EReal) ((m ((c : Thread nD τ).loc main_arg1)) : S4x128x768.Idx → EReal) (batch t) (blk0_at m c t) (blk1_at m c t) j).trans ?_
  rw [blk2_eq m c t, blk3_eq m c t, blk4_eq m c t, blk5_eq m c t, blk6_eq m c t]
  unfold launchResult
  congr 1
  have hj0 : (j 0).val < 1 := (j 0).isLt
  funext a
  apply Fin.ext
  match a with
  | ⟨0, _⟩ => show t.val = win0_7.index t (0 : Fin 4) * 1 + 1 * (j 0).val; omega
  | ⟨1, _⟩ => show (j 1).val = win0_7.index t (1 : Fin 4) * 128 + 1 * (j 1).val; omega
  | ⟨2, _⟩ => show (j 3).val = win0_7.index t (3 : Fin 4) * 128 + 1 * (j 3).val; omega
  | ⟨3, _⟩ => show (j 2).val = win0_7.index t (2 : Fin 4) * 2 + 1 * (j 2).val; omega

/-- An index of the result array is in point `t`'s block iff each coordinate is in the block's range on its axis. -/
theorem mem_blk7 (t : Fin cfg0.N) (i : S4x128x2x128.Idx) :
    i ∈ ((cfg0.win 7).blk t).view.set ↔ ∀ a : Fin 4, win0_7.index t a * S1x128x2x128.size a ≤ (i a).val
      ∧ (i a).val < win0_7.index t a * S1x128x2x128.size a + S1x128x2x128.size a := by
  show i ∈ ((View.whole main_v5).slice (win0_7.rect t)).set ↔ _
  rw [View.set_slice_whole, Rect.mem_set_unit]
  exact Iff.rfl

/-- Every index of the result array is in the block of its batch's point. -/
theorem cover7 (i : S4x128x2x128.Idx) :
    ∃ t : Fin cfg0.N, (cfg0.win 7).flush t = true ∧ i ∈ ((cfg0.win 7).blk t).view.set := by
  have hN : cfg0.N = 4 := N_0
  have hi0 : (i 0).val < 4 := (i 0).isLt
  have hi1 : (i 1).val < 128 := (i 1).isLt
  have hi2 : (i 2).val < 2 := (i 2).isLt
  have hi3 : (i 3).val < 128 := (i 3).isLt
  obtain ⟨t, ht⟩ : ∃ t : Fin cfg0.N, t.val = (i 0).val := ⟨⟨(i 0).val, by omega⟩, rfl⟩
  obtain ⟨e00, e01, e02, e10, e11, e12, e20, e21, e30, e40, e41, e50, e51, e60, e70, e71, e72, e73⟩ := idx_facts t
  refine ⟨t, flush0_7 t, ?_⟩
  rw [mem_blk7]
  intro a
  match a with
  | ⟨0, _⟩ => show win0_7.index t (0 : Fin 4) * 1 ≤ (i 0).val ∧ (i 0).val < win0_7.index t (0 : Fin 4) * 1 + 1; omega
  | ⟨1, _⟩ => show win0_7.index t (1 : Fin 4) * 128 ≤ (i 1).val ∧ (i 1).val < win0_7.index t (1 : Fin 4) * 128 + 128; omega
  | ⟨2, _⟩ => show win0_7.index t (2 : Fin 4) * 2 ≤ (i 2).val ∧ (i 2).val < win0_7.index t (2 : Fin 4) * 2 + 2; omega
  | ⟨3, _⟩ => show win0_7.index t (3 : Fin 4) * 128 ≤ (i 3).val ∧ (i 3).val < win0_7.index t (3 : Fin 4) * 128 + 128; omega

/-- After the launch the result array is the specified result in the launch's layout. -/
theorem final (c : Dev nD) : (dats m 0 c).arrAt 7 cfg0.N = launchResult m c :=
  (dats m 0 c).arrAt_eq_of_cover 7 (launchResult m c) (fun t _ => flushed_eq m c t) (cover7)

end Cert.KernelIdeal.Gen.Body

end
-- ==== Proof.Tail.lean ====
/-
  The kernel program's run, with its result named.

  After the launch the host transposes the last two axes of the launch's array, (b, n, o, m) to (b, n, m, o). Entry
  (b, n, m, o) of the transposed array is entry (b, n, o, m) of the launch's array, which is the specified result at
  (b, n, m, o). So every weakly fair execution of the whole program ends with the result buffer at the specified
  result of the arguments, and the arguments unchanged.
-/
import proofs.«173709_j27625229648164_2_alg».proof.Proof.Block

set_option maxRecDepth 16384

noncomputable section

open scoped BigOperators

namespace Cert.KernelIdeal.Gen.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

/-- What the lines after the launch leave in the result buffer: the specified result. -/
theorem tail_value (c : Dev nD) :
    (Pipeline.afterTail₀ cfgs (dats m) 0 (V0 m) [hostOps1] c main_v6 : S4x128x128x2.Idx → EReal)
      = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold Pipeline.afterTail₀
  show StableHlo.after (hostOps1 (F := Ideal)) _ (Proc.devRef .tc main_v6) = _
  after_results
  have e := (Pipeline.withArrays_arr spec0 winFacts0.arr_inj c (V0 m c)
    (fun w => (dats m 0 c).arrAt w (cfgs 0).N) 7).trans (final m c)
  rw [e]
  funext j
  refine (transpose_apply [0, 1, 3, 2] (launchResult m c) transposes_S4x128x2x128_S4x128x128x2_0_1_3_2 j
    (ix4 (j 0) (j 1) (j 3) (j 2)) (fun b => ?_)).trans ?_
  · match b with
    | ⟨0, _⟩ => rfl
    | ⟨1, _⟩ => rfl
    | ⟨2, _⟩ => rfl
    | ⟨3, _⟩ => rfl
  · show Cert.Spec.G _ _ _ _ _ _ _ (ix4 (j 0) (j 1) (j 2) (j 3)) = _
    exact congrArg _ (eq_ix4 j).symm

/-- Every weakly fair execution of the kernel program terminates with its result buffer at the specified result of
    the arguments, and the arguments unchanged. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v6) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v6 (Pipeline.mem_restRefs_of main_v6 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).1 6).trans (((dats m 0 c).arrAt_in 6 rfl _).trans ((A_eq m c 6).trans (V_main_arg6 m c)))⟩)
    (run_main m ρ)

end Cert.KernelIdeal.Gen.Body

end
-- ==== Proof.RefIsG.lean ====
/-
  The reference computes the specified result.

  Read one operation at a time, the reference's result at (b, n, m, o) is the sum over the 1024 hidden units of
  max(in1[b, n, h] + in2[b, m, h], 0) · Wo[o, h], plus bo[o], where in1 and in2 are the two projections (the first
  with its bias) broadcast against each other. The broadcasts only re-index: the entry read is (b, n, ·) of the first
  projection and (b, m, ·) of the second.
-/
import proofs.«173709_j27625229648164_2_alg».proof.Proof.Gen.ReferenceIdeal.Read
import proofs.«173709_j27625229648164_2_alg».proof.Proof.Spec
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

/-! ## Where each operand is read -/

theorem at_in1_l (i : S4x128x128x2.Idx) (h : Fin 1024) (k : Fin 768) :
    lidx_main_v0 (idx_main_v5 (idx_main_v7 (lidx_main_v11 i h))) k = ix3 (i 0) (i 1) k :=
  funext fun a => Fin.ext (by match a with | ⟨0, _⟩ => rfl | ⟨1, _⟩ => rfl | ⟨2, _⟩ => rfl)
theorem at_in1_r (i : S4x128x128x2.Idx) (h : Fin 1024) (k : Fin 768) :
    ridx_main_v0 (idx_main_v5 (idx_main_v7 (lidx_main_v11 i h))) k = ix2 h k :=
  funext fun a => Fin.ext (by match a with | ⟨0, _⟩ => rfl | ⟨1, _⟩ => rfl)
theorem at_b1 (i : S4x128x128x2.Idx) (h : Fin 1024) :
    idx_main_v1 (idx_main_v2 (idx_main_v5 (idx_main_v7 (lidx_main_v11 i h)))) = ix1 h :=
  funext fun a => Fin.ext (by match a with | ⟨0, _⟩ => rfl)
theorem at_in2_l (i : S4x128x128x2.Idx) (h : Fin 1024) (k : Fin 768) :
    lidx_main_v4 (idx_main_v6 (idx_main_v8 (lidx_main_v11 i h))) k = ix3 (i 0) (i 2) k :=
  funext fun a => Fin.ext (by match a with | ⟨0, _⟩ => rfl | ⟨1, _⟩ => rfl | ⟨2, _⟩ => rfl)
theorem at_in2_r (i : S4x128x128x2.Idx) (h : Fin 1024) (k : Fin 768) :
    ridx_main_v4 (idx_main_v6 (idx_main_v8 (lidx_main_v11 i h))) k = ix2 h k :=
  funext fun a => Fin.ext (by match a with | ⟨0, _⟩ => rfl | ⟨1, _⟩ => rfl)
theorem at_wo (i : S4x128x128x2.Idx) (h : Fin 1024) : ridx_main_v11 i h = ix2 (i 3) h :=
  funext fun a => Fin.ext (by match a with | ⟨0, _⟩ => rfl | ⟨1, _⟩ => rfl)
theorem at_bo (i : S4x128x128x2.Idx) : idx_main_v12 (idx_main_v13 i) = ix1 (i 3) :=
  funext fun a => Fin.ext (by match a with | ⟨0, _⟩ => rfl)

/-! ## The hidden activation, then the result -/

/-- max(in1 + in2, 0) at (b, n, m, h), as the reference forms it. -/
theorem hidden_at (x0 x1 : (⟨S4x128x768, .f32⟩ : BufTy).Contents (Elt Ideal)) (x2 : (⟨S1024x768, .f32⟩ : BufTy).Contents (Elt Ideal)) (x3 : (⟨S1024, .f32⟩ : BufTy).Contents (Elt Ideal)) (x4 : (⟨S1024x768, .f32⟩ : BufTy).Contents (Elt Ideal))
    (i : S4x128x128x2.Idx) (h : Fin 1024) :
    val_main_v10 (F := Ideal) x0 x1 x2 x3 x4 (lidx_main_v11 i h)
      = Cert.Spec.hiddenRow (fun d => x0 (ix3 (i 0) (i 1) d)) (fun d => x1 (ix3 (i 0) (i 2) d)) x2 x3 x4 h := by
  rw [val_main_v10_apply, val_main_v9_apply, val_main_v7_apply, val_main_v5_apply, val_main_v3_apply,
    val_main_v0_apply, val_main_v2_apply, val_main_v1_apply, val_main_v8_apply, val_main_v6_apply, val_main_v4_apply,
    val_main_call0_v0_apply, val_main_call0_cst_apply]
  simp only [at_in1_l, at_in1_r, at_b1, at_in2_l, at_in2_r, Ideal.addf_def, Ideal.maximumf_def, Ideal.ofBits_def,
    Ideal.ofBits_zero_f32]
  rfl

/-- The reference's result array is the specified one. -/
theorem ref_eq_G (x0 x1 : (⟨S4x128x768, .f32⟩ : BufTy).Contents (Elt Ideal)) (x2 : (⟨S1024x768, .f32⟩ : BufTy).Contents (Elt Ideal)) (x3 : (⟨S1024, .f32⟩ : BufTy).Contents (Elt Ideal)) (x4 : (⟨S1024x768, .f32⟩ : BufTy).Contents (Elt Ideal))
    (x5 : (⟨S2x1024, .f32⟩ : BufTy).Contents (Elt Ideal)) (x6 : (⟨S2, .f32⟩ : BufTy).Contents (Elt Ideal)) :
    val_main_v14 (F := Ideal) x0 x1 x2 x3 x4 x5 x6 = Cert.Spec.G x0 x1 x2 x3 x4 x5 x6 := by
  funext i
  rw [val_main_v14_apply, val_main_v11_apply, val_main_v13_apply, val_main_v12_apply, at_bo]
  show _ + _ = _ + _
  congr 1
  exact Finset.sum_congr rfl fun h _ =>
    congrArg₂ (· * ·) (hidden_at x0 x1 x2 x3 x4 i h) (congrArg x5 (at_wo i h))

end Cert.ReferenceIdeal.RefValue

end
-- ==== Proof.lean ====
/-
  The claim: a bilinear pair classifier computed two ways.

  Both programs take two batches of 128 rows of 768 numbers, project each row to 1024 hidden units (the first
  projection with a bias), add every row of the first batch to every row of the second, clamp at zero, and map the
  1024 hidden units to 2 classes with a bias. The reference does this with whole-array operations. The kernel does it
  per batch entry, walking the hidden units in 8 chunks of 128 and adding each chunk's contribution to an accumulator
  that starts at zero, in the layout (n, class, m); the host then swaps the last two axes.

  On the extended reals the two results are equal element by element: a change of float format is the identity
  there, a product into a zero accumulator is the plain sum, the sum over 1024 hidden units may be taken chunk by
  chunk because addition is commutative and associative, and the product is commutative. No finiteness of the inputs
  is used for the values. The kernel programs' frames are the generated ones, the reference's frame is its generated
  run with the result dropped, and the idealized kernel differs from the kernel by no recorded rewrite.
-/
import proofs.«173709_j27625229648164_2_alg».proof.Defs
import proofs.«173709_j27625229648164_2_alg».proof.Proof.Gen.Kernel
import proofs.«173709_j27625229648164_2_alg».proof.Proof.Gen.Kernel.Skeleton
import proofs.«173709_j27625229648164_2_alg».proof.Proof.Gen.Kernel.Loops
import proofs.«173709_j27625229648164_2_alg».proof.Proof.Gen.Kernel.Launch
import proofs.«173709_j27625229648164_2_alg».proof.Proof.Gen.Kernel.Points
import proofs.«173709_j27625229648164_2_alg».proof.Proof.Gen.Kernel.Frame
import proofs.«173709_j27625229648164_2_alg».proof.Proof.Gen.KernelIdeal
import proofs.«173709_j27625229648164_2_alg».proof.Proof.Gen.KernelIdeal.Skeleton
import proofs.«173709_j27625229648164_2_alg».proof.Proof.Gen.KernelIdeal.Loops
import proofs.«173709_j27625229648164_2_alg».proof.Proof.Gen.KernelIdeal.Launch
import proofs.«173709_j27625229648164_2_alg».proof.Proof.Gen.KernelIdeal.Points
import proofs.«173709_j27625229648164_2_alg».proof.Proof.Gen.KernelIdeal.Frame
import proofs.«173709_j27625229648164_2_alg».proof.Proof.Gen.ReferenceIdeal
import proofs.«173709_j27625229648164_2_alg».proof.Proof.Gen.Pre_finite_inputs
import proofs.«173709_j27625229648164_2_alg».proof.Proof.Gen.ReferenceIdeal.Run
import proofs.«173709_j27625229648164_2_alg».proof.Proof.Gen.ReferenceIdeal.Read
import proofs.«173709_j27625229648164_2_alg».proof.Proof.Tail
import proofs.«173709_j27625229648164_2_alg».proof.Proof.RefIsG
import Idealize.ShloMosaic.Adequacy
import Idealize.ShloMosaic.Init

noncomputable section

namespace Cert.Proof

open Idealize.ShloMosaic Idealize.SL.Sem

/-- The kernel's frame, at the word level. -/
theorem frame_kernel : Cert.frame_Kernel := fun m ρ _ => Cert.Kernel.Gen.frame m ρ

/-- The idealized kernel's frame. -/
theorem frame_kernelIdeal : Cert.frame_KernelIdeal := fun m ρ _ => Cert.KernelIdeal.Gen.frame m ρ

/-- The reference's frame: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel with no recorded rewrite. -/
theorem preserves : Cert.preserves_Kernel_KernelIdeal := trivial

/-- From memories that agree on the seven arguments, both programs end with the specified result of those arguments
    in their result buffers: the kernel by its accumulation over chunks and the transpose, the reference operation by
    operation. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Gen.Body.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.ref_eq_G, (hagree c).1, (hagree c).2.1,
    (hagree c).2.2.1, (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
